-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S2x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S4096x1024 : Shape := ⟨2, ![4096, 1024]⟩
abbrev S4096x3072 : Shape := ⟨2, ![4096, 3072]⟩
abbrev S512x1024 : Shape := ⟨2, ![512, 1024]⟩
abbrev S512x3072 : Shape := ⟨2, ![512, 3072]⟩
abbrev S1x3072 : Shape := ⟨2, ![1, 3072]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S32x2048x2048 : Shape := ⟨3, ![32, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S2x16x2048x2048 : Shape := ⟨4, ![2, 16, 2048, 2048]⟩

abbrev nBuf : Space → Nat
  | .hbm => 34
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x3072, .f32⟩
  | .hbm, ⟨11, _⟩ => ⟨S3072, .f32⟩
  | .hbm, ⟨12, _⟩ => ⟨S4096x1024, .f32⟩
  | .hbm, ⟨13, _⟩ => ⟨S4096x1024, .bf16⟩
  | .hbm, ⟨14, _⟩ => ⟨S1024x3072, .bf16⟩
  | .hbm, ⟨15, _⟩ => ⟨S4096x3072, .bf16⟩
  | .hbm, ⟨16, _⟩ => ⟨S4096x1024, .bf16⟩
  | .hbm, ⟨17, _⟩ => ⟨S4096x1024, .bf16⟩
  | .hbm, ⟨18, _⟩ => ⟨S4096x1024, .bf16⟩
  | .hbm, ⟨19, _⟩ => ⟨S2x2048x16x64, .bf16⟩
  | .hbm, ⟨20, _⟩ => ⟨S2x16x2048x64, .bf16⟩
  | .hbm, ⟨21, _⟩ => ⟨S32x2048x64, .bf16⟩
  | .hbm, ⟨22, _⟩ => ⟨S2x2048x16x64, .bf16⟩
  | .hbm, ⟨23, _⟩ => ⟨S2x16x2048x64, .bf16⟩
  | .hbm, ⟨24, _⟩ => ⟨S32x2048x64, .bf16⟩
  | .hbm, ⟨25, _⟩ => ⟨S2x2048x16x64, .bf16⟩
  | .hbm, ⟨26, _⟩ => ⟨S2x16x2048x64, .bf16⟩
  | .hbm, ⟨27, _⟩ => ⟨S32x2048x64, .bf16⟩
  | .hbm, ⟨28, _⟩ => ⟨S32x2048x64, .f32⟩
  | .hbm, ⟨29, _⟩ => ⟨S32x2048x2048, .f32⟩
  | .hbm, ⟨30, _⟩ => ⟨S2x16x2048x64, .f32⟩
  | .hbm, ⟨31, _⟩ => ⟨S2x2048x16x64, .f32⟩
  | .hbm, ⟨32, _⟩ => ⟨S2x2048x1024, .f32⟩
  | .hbm, ⟨33, _⟩ => ⟨S2x16x2048x2048, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S3072, .f32⟩
  | .local _ .vmem, ⟨4, _⟩ => ⟨S512x3072, .bf16⟩
  | .local _ .vmem, ⟨5, _⟩ => ⟨S512x3072, .bf16⟩
  | .local _ .vmem, ⟨6, _⟩ => ⟨S1x512x64, .bf16⟩
  | .local _ .vmem, ⟨7, _⟩ => ⟨S1x512x64, .bf16⟩
  | .local _ .vmem, ⟨8, _⟩ => ⟨S1x2048x64, .bf16⟩
  | .local _ .vmem, ⟨9, _⟩ => ⟨S1x2048x64, .bf16⟩
  | .local _ .vmem, ⟨10, _⟩ => ⟨S1x2048x64, .bf16⟩
  | .local _ .vmem, ⟨11, _⟩ => ⟨S1x2048x64, .bf16⟩
  | .local _ .vmem, ⟨12, _⟩ => ⟨S1x512x64, .f32⟩
  | .local _ .vmem, ⟨13, _⟩ => ⟨S1x512x64, .f32⟩
  | .local _ .vmem, ⟨14, _⟩ => ⟨S1x512x2048, .f32⟩
  | .local _ .vmem, ⟨15, _⟩ => ⟨S1x512x2048, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21_0 : Ref sig .tc := ⟨.hbm, 28, rfl⟩
abbrev main_v21_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  shapeCasts_S2x2048x1024_S4096x1024 : S2x2048x1024.ShapeCasts S4096x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S3072 : S3072.ShapeCasts S3072
  shapeCasts_S3072_S1x3072 : S3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  slices_S4096x3072_S4096x1024_0_0 : S4096x3072.Slices ![0, 0] S4096x1024
  slices_S4096x3072_S4096x1024_0_1024 : S4096x3072.Slices ![0, 1024] S4096x1024
  slices_S4096x3072_S4096x1024_0_2048 : S4096x3072.Slices ![0, 2048] S4096x1024
  shapeCasts_S4096x1024_S2x2048x16x64 : S4096x1024.ShapeCasts S2x2048x16x64
  transposes_S2x2048x16x64_S2x16x2048x64_0_2_1_3 : S2x2048x16x64.Transposes [0, 2, 1, 3] S2x16x2048x64
  shapeCasts_S2x16x2048x64_S32x2048x64 : S2x16x2048x64.ShapeCasts S32x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x64_S1x512x64 : S512x64.ShapeCasts S1x512x64
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  shapeCasts_S32x2048x2048_S2x16x2048x2048 : S32x2048x2048.ShapeCasts S2x16x2048x2048
  dot_S512x1024_S1024x3072_S512x3072_1_0_0_1_n_n_wf : DotDims.WF S512x1024 S1024x3072 S512x3072 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S4096x3072.size a
  hwx0_3 : ∀ i : grid0.Coords, EltTy.bits .bf16 = 32 ∨ (Rect.block (s := S4096x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S32x2048x64.size a
  hwx1_0 : ∀ i : grid1.Coords, EltTy.bits .bf16 = 32 ∨ (Rect.block (s := S32x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .bf16 = 32 ∨ (Rect.block (s := S32x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .bf16 = 32 ∨ (Rect.block (s := S32x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S32x2048x64.size a
  hwx1_3 : ∀ i : grid1.Coords, EltTy.bits .f32 = 32 ∨ (Rect.block (s := S32x2048x64) S1x512x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x2048.size a ≤ S32x2048x2048.size a
  hwx1_4 : ∀ i : grid1.Coords, EltTy.bits .f32 = 32 ∨ (Rect.block (s := S32x2048x2048) S1x512x2048.size (cc1_transform_4 i) (hinb1_4 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v6) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21_0) S1x512x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21_1) S1x512x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S2x2048x1024, .f32⟩
  | .hbm, ⟨8, _⟩ => ⟨S1x1x1024, .f32⟩
  | .hbm, ⟨9, _⟩ => ⟨S2x2048x1024, .f32⟩
  | .hbm, ⟨10, _⟩ => ⟨S2x2048x1024, .f32⟩
  | .hbm, ⟨11, _⟩ => ⟨S2x2048x16x64, .f32⟩
  | .hbm, ⟨12, _⟩ => ⟨S2x16x2048x64, .f32⟩
  | .hbm, ⟨13, _⟩ => ⟨S2x2048x1024, .f32⟩
  | .hbm, ⟨14, _⟩ => ⟨S1x1x1024, .f32⟩
  | .hbm, ⟨15, _⟩ => ⟨S2x2048x1024, .f32⟩
  | .hbm, ⟨16, _⟩ => ⟨S2x2048x1024, .f32⟩
  | .hbm, ⟨17, _⟩ => ⟨S2x2048x16x64, .f32⟩
  | .hbm, ⟨18, _⟩ => ⟨S2x16x2048x64, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S2x2048x16x64, .f32⟩
  | .hbm, ⟨24, _⟩ => ⟨S2x16x2048x64, .f32⟩
  | .hbm, ⟨25, _⟩ => ⟨S2x16x2048x2048, .f32⟩
  | .hbm, ⟨26, _⟩ => ⟨S_, .f32⟩
  | .hbm, ⟨27, _⟩ => ⟨S_, .f32⟩
  | .hbm, ⟨28, _⟩ => ⟨S2x16x2048x2048, .f32⟩
  | .hbm, ⟨29, _⟩ => ⟨S2x16x2048x2048, .f32⟩
  | .hbm, ⟨30, _⟩ => ⟨S_, .f32⟩
  | .hbm, ⟨31, _⟩ => ⟨S2x16x2048, .f32⟩
  | .hbm, ⟨32, _⟩ => ⟨S_, .f32⟩
  | .hbm, ⟨33, _⟩ => ⟨S2x16x2048, .f32⟩
  | .hbm, ⟨34, _⟩ => ⟨S2x16x2048, .f32⟩
  | .hbm, ⟨35, _⟩ => ⟨S2x16x2048x1, .f32⟩
  | .hbm, ⟨36, _⟩ => ⟨S2x16x2048x2048, .f32⟩
  | .hbm, ⟨37, _⟩ => ⟨S2x16x2048x2048, .f32⟩
  | .hbm, ⟨38, _⟩ => ⟨S2x16x2048x2048, .f32⟩
  | .hbm, ⟨39, _⟩ => ⟨S_, .f32⟩
  | .hbm, ⟨40, _⟩ => ⟨S2x16x2048, .f32⟩
  | .hbm, ⟨41, _⟩ => ⟨S2x16x2048x1, .f32⟩
  | .hbm, ⟨42, _⟩ => ⟨S2x16x2048x2048, .f32⟩
  | .hbm, ⟨43, _⟩ => ⟨S2x16x2048x2048, .f32⟩
  | .hbm, ⟨44, _⟩ => ⟨S2x16x2048x64, .f32⟩
  | .hbm, ⟨45, _⟩ => ⟨S2x2048x16x64, .f32⟩
  | .hbm, ⟨46, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.BodyK.lean ====
/-
  The two kernel bodies of the program, each run once at a symbolic grid point, for any float instance.

  Region 0 (the projection): at a point the body reads a block of 512 rows of the flattened input, the whole
  concatenated weight matrix and the whole concatenated bias, and stores, through the one rectangle that is the whole
  output block, the matrix product plus the bias row. Region 1 (the attention): at a point the body reads a block
  of 512 query rows of one head and that head's whole key and value arrays, and stores the 512×2048 block of
  attention weights and the 512×64 block of weighted values, each through the one rectangle that is its whole block.
  Both bodies also load the output buffers before storing into them; the loaded values are never used, so the
  buffers may hold anything when the body is entered.

  For each region, at a parameter V (what the buffers hold when the region is entered): the block of each window at
  a point, what the body leaves in each output buffer as a function of the input blocks, the body's triple, the
  pipeline's proof data, and the body obligation at every point.
-/
import proofs.«138272_j50989851738367_2_alg».proof.Proof.Gen.Kernel.Launch
import proofs.«138272_j50989851738367_2_alg».proof.Proof.Gen.Kernel.Skeleton
import proofs.«138272_j50989851738367_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the projection -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, whether the pipeline fetched it there or
    the block index has not moved since the last fetch. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body loads and stores through: each is its whole buffer. -/
abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S3072 := Rect.unit (s := S3072) ![0] S3072.size inb_S3072_S3072_0
abbrev r0_3 : Rect S512x3072 := Rect.unit (s := S512x3072) ![0, 0] S512x3072.size inb_S512x3072_S512x3072_0_0

/-- The output buffer after the body, from the three input blocks: its one store, of the product plus bias. -/
def out0_3 (x0 : Vec F S512x1024 .bf16) (x1 : Vec F S1024x3072 .bf16) (x2 : Vec F S3072 .f32) : Vec F S512x3072 .bf16 :=
  View.canon [⟨r0_3, k0_pay1 (View.ld x0 r0_0) (View.ld x1 r0_1) (View.ld x2 r0_2)⟩]

/-- The one store covers the buffer. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

set_option maxHeartbeats 1000000 in
/-- The projection body on whole staging memrefs, the inputs' at read contents and the output's at anything, runs to
    the continuation with the inputs as they were and the output at `out0_3` of the inputs. -/
theorem sound_kernel0 (c : Dev nD) (E : Set ℕ) (i : grid0.Coords)
    (arg1 : Memref sig .tc .vmem S512x1024 .bf16) (harg1 : arg1.IsWhole) (arg2 : Memref sig .tc .vmem S1024x3072 .bf16) (harg2 : arg2.IsWhole)
    (arg3 : Memref sig .tc .vmem S3072 .f32) (harg3 : arg3.IsWhole) (arg4 : Memref sig .tc .vmem S512x3072 .bf16) (harg4 : arg4.IsWhole)
    (x0 : Vec F S512x1024 .bf16) (x1 : Vec F S1024x3072 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body each input's buffer
    at its block and the output's at `out0_3` of the input blocks; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

/-! # Region 1: the attention -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_q : Rect S1x512x64 := Rect.unit (s := S1x512x64) ![0, 0, 0] S1x512x64.size inb_S1x512x64_S1x512x64_0_0_0
abbrev r1_kv : Rect S1x2048x64 := Rect.unit (s := S1x2048x64) ![0, 0, 0] S1x2048x64.size inb_S1x2048x64_S1x2048x64_0_0_0
abbrev r1_p : Rect S1x512x2048 := Rect.unit (s := S1x512x2048) ![0, 0, 0] S1x512x2048.size inb_S1x512x2048_S1x512x2048_0_0_0

/-- The weighted-values buffer after the body: its one store. -/
def out1_3 (x0 : Vec F S1x512x64 .bf16) (x1 : Vec F S1x2048x64 .bf16) (x2 : Vec F S1x2048x64 .bf16) : Vec F S1x512x64 .f32 :=
  View.canon [⟨r1_q, k1_pay3 (View.ld x0 r1_q) (View.ld x1 r1_kv) (View.ld x2 r1_kv)⟩]
/-- The attention-weights buffer after the body: its one store. -/
def out1_4 (x0 : Vec F S1x512x64 .bf16) (x1 : Vec F S1x2048x64 .bf16) : Vec F S1x512x2048 .f32 :=
  View.canon [⟨r1_p, k1_pay2 (View.ld x0 r1_q) (View.ld x1 r1_kv)⟩]

theorem cover1_3 (p0 : Vec F S1x512x64 .f32) (y : S1x512x64.Idx) :
    ∃ pc ∈ ([⟨r1_q, p0⟩] : List (View.Piece (Elt F) S1x512x64 .f32)), y ∈ pc.1.set :=
  View.cover_of_tiled [⟨r1_q, p0⟩] S1x512x64.size (by rfl) y
theorem cover1_4 (p0 : Vec F S1x512x2048 .f32) (y : S1x512x2048.Idx) :
    ∃ pc ∈ ([⟨r1_p, p0⟩] : List (View.Piece (Elt F) S1x512x2048 .f32)), y ∈ pc.1.set :=
  View.cover_of_tiled [⟨r1_p, p0⟩] S1x512x2048.size (by rfl) y

set_option maxHeartbeats 1000000 in
/-- The attention body on whole staging memrefs, the inputs' at read contents and the outputs' at anything, runs to the
    continuation with the inputs as they were and the outputs at `out1_3`, `out1_4` of the inputs. -/
theorem sound_kernel1 (c : Dev nD) (E : Set ℕ) (i : grid1.Coords)
    (arg2 : Memref sig .tc .vmem S1x512x64 .bf16) (harg2 : arg2.IsWhole) (arg3 : Memref sig .tc .vmem S1x2048x64 .bf16) (harg3 : arg3.IsWhole)
    (arg4 : Memref sig .tc .vmem S1x2048x64 .bf16) (harg4 : arg4.IsWhole) (arg5 : Memref sig .tc .vmem S1x512x64 .f32) (harg5 : arg5.IsWhole)
    (arg6 : Memref sig .tc .vmem S1x512x2048 .f32) (harg6 : arg6.IsWhole)
    (x0 : Vec F S1x512x64 .bf16) (x1 : Vec F S1x2048x64 .bf16) (x2 : Vec F S1x2048x64 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2) ∗ owns (c : Thread nD τ) arg6 fullShare (out1_4 x0 x1)) -∗ K ⟨⟩))
      ⊢ wp frame (wpE (defs₀ (F := F)) Variants.none c none) E (cc1__attn_kernel i arg2 harg2 arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]
theorem after1_4 (c : Dev nD) (t : Fin cfg1.N) :
    (dat1 V c).after 4 t = out1_4 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.Kernel.Body

end
-- ==== Proof.RunK.lean ====
/-
  The whole program run: host operations, the projection region, host operations, the attention region, host
  operations. The buffers' contents at each of the six boundaries are a fold from the launch memory: a stretch of
  host operations applies its operations in order, a region leaves its input arrays as entered and each output array
  at what the write-backs of its blocks leave. Every weakly fair execution terminates, nothing faults, and at the end
  every buffer that outlives the regions holds the last boundary's contents: this gives both that the argument
  arrays end as launched and what the result arrays hold.
-/
import proofs.«138272_j50989851738367_2_alg».proof.Proof.BodyK
import proofs.«138272_j50989851738367_2_alg».proof.Proof.Gen.Kernel.Regions

set_option maxRecDepth 16384

noncomputable section

namespace Cert.Kernel.Run

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first stretch of host operations (the projection's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (the attention's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last stretch: the contents at the return. -/
abbrev W5 : Dev nD → Valuation τ sig (Elt F) := fun c => StableHlo.after hostOps2 (W4 m ρ c)

/-! ### The arguments end as launched: no host operation writes one and no region's output array is one -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide : main_arg2 ∉ hostOps2_W)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide : main_arg4 ∉ hostOps2_W)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide : main_arg5 ∉ hostOps2_W)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (by decide : main_arg6 ∉ hostOps2_W)
    _ = W3 m ρ c (Proc.devRef .tc main_arg6) := W4_of_ne m ρ c main_arg6 (by decide)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the
    pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the
    pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- The run: from any memory with zero counters every weakly fair execution of the program terminates, nothing
    faulting, and every buffer that outlives the regions ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c)⟩) (run_main m ρ)

end Cert.Kernel.Run

end
-- ==== Proof.BodyI.lean ====
/-
  The two kernel bodies of the program, each run once at a symbolic grid point, for any float instance.

  Region 0 (the projection): at a point the body reads a block of 512 rows of the flattened input, the whole
  concatenated weight matrix and the whole concatenated bias, and stores, through the one rectangle that is the whole
  output block, the matrix product plus the bias row. Region 1 (the attention): at a point the body reads a block
  of 512 query rows of one head and that head's whole key and value arrays, and stores the 512×2048 block of
  attention weights and the 512×64 block of weighted values, each through the one rectangle that is its whole block.
  Both bodies also load the output buffers before storing into them; the loaded values are never used, so the
  buffers may hold anything when the body is entered.

  For each region, at a parameter V (what the buffers hold when the region is entered): the block of each window at
  a point, what the body leaves in each output buffer as a function of the input blocks, the body's triple, the
  pipeline's proof data, and the body obligation at every point.
-/
import proofs.«138272_j50989851738367_2_alg».proof.Proof.Gen.KernelIdeal.Launch
import proofs.«138272_j50989851738367_2_alg».proof.Proof.Gen.KernelIdeal.Skeleton
import proofs.«138272_j50989851738367_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the projection -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, whether the pipeline fetched it there or
    the block index has not moved since the last fetch. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body loads and stores through: each is its whole buffer. -/
abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S3072 := Rect.unit (s := S3072) ![0] S3072.size inb_S3072_S3072_0
abbrev r0_3 : Rect S512x3072 := Rect.unit (s := S512x3072) ![0, 0] S512x3072.size inb_S512x3072_S512x3072_0_0

/-- The output buffer after the body, from the three input blocks: its one store, of the product plus bias. -/
def out0_3 (x0 : Vec F S512x1024 .bf16) (x1 : Vec F S1024x3072 .bf16) (x2 : Vec F S3072 .f32) : Vec F S512x3072 .bf16 :=
  View.canon [⟨r0_3, k0_pay1 (View.ld x0 r0_0) (View.ld x1 r0_1) (View.ld x2 r0_2)⟩]

/-- The one store covers the buffer. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

set_option maxHeartbeats 1000000 in
/-- The projection body on whole staging memrefs, the inputs' at read contents and the output's at anything, runs to
    the continuation with the inputs as they were and the output at `out0_3` of the inputs. -/
theorem sound_kernel0 (c : Dev nD) (E : Set ℕ) (i : grid0.Coords)
    (arg1 : Memref sig .tc .vmem S512x1024 .bf16) (harg1 : arg1.IsWhole) (arg2 : Memref sig .tc .vmem S1024x3072 .bf16) (harg2 : arg2.IsWhole)
    (arg3 : Memref sig .tc .vmem S3072 .f32) (harg3 : arg3.IsWhole) (arg4 : Memref sig .tc .vmem S512x3072 .bf16) (harg4 : arg4.IsWhole)
    (x0 : Vec F S512x1024 .bf16) (x1 : Vec F S1024x3072 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body each input's buffer
    at its block and the output's at `out0_3` of the input blocks; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

/-! # Region 1: the attention -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_q : Rect S1x512x64 := Rect.unit (s := S1x512x64) ![0, 0, 0] S1x512x64.size inb_S1x512x64_S1x512x64_0_0_0
abbrev r1_kv : Rect S1x2048x64 := Rect.unit (s := S1x2048x64) ![0, 0, 0] S1x2048x64.size inb_S1x2048x64_S1x2048x64_0_0_0
abbrev r1_p : Rect S1x512x2048 := Rect.unit (s := S1x512x2048) ![0, 0, 0] S1x512x2048.size inb_S1x512x2048_S1x512x2048_0_0_0

/-- The weighted-values buffer after the body: its one store. -/
def out1_3 (x0 : Vec F S1x512x64 .bf16) (x1 : Vec F S1x2048x64 .bf16) (x2 : Vec F S1x2048x64 .bf16) : Vec F S1x512x64 .f32 :=
  View.canon [⟨r1_q, k1_pay3 (View.ld x0 r1_q) (View.ld x1 r1_kv) (View.ld x2 r1_kv)⟩]
/-- The attention-weights buffer after the body: its one store. -/
def out1_4 (x0 : Vec F S1x512x64 .bf16) (x1 : Vec F S1x2048x64 .bf16) : Vec F S1x512x2048 .f32 :=
  View.canon [⟨r1_p, k1_pay2 (View.ld x0 r1_q) (View.ld x1 r1_kv)⟩]

theorem cover1_3 (p0 : Vec F S1x512x64 .f32) (y : S1x512x64.Idx) :
    ∃ pc ∈ ([⟨r1_q, p0⟩] : List (View.Piece (Elt F) S1x512x64 .f32)), y ∈ pc.1.set :=
  View.cover_of_tiled [⟨r1_q, p0⟩] S1x512x64.size (by rfl) y
theorem cover1_4 (p0 : Vec F S1x512x2048 .f32) (y : S1x512x2048.Idx) :
    ∃ pc ∈ ([⟨r1_p, p0⟩] : List (View.Piece (Elt F) S1x512x2048 .f32)), y ∈ pc.1.set :=
  View.cover_of_tiled [⟨r1_p, p0⟩] S1x512x2048.size (by rfl) y

set_option maxHeartbeats 1000000 in
/-- The attention body on whole staging memrefs, the inputs' at read contents and the outputs' at anything, runs to the
    continuation with the inputs as they were and the outputs at `out1_3`, `out1_4` of the inputs. -/
theorem sound_kernel1 (c : Dev nD) (E : Set ℕ) (i : grid1.Coords)
    (arg2 : Memref sig .tc .vmem S1x512x64 .bf16) (harg2 : arg2.IsWhole) (arg3 : Memref sig .tc .vmem S1x2048x64 .bf16) (harg3 : arg3.IsWhole)
    (arg4 : Memref sig .tc .vmem S1x2048x64 .bf16) (harg4 : arg4.IsWhole) (arg5 : Memref sig .tc .vmem S1x512x64 .f32) (harg5 : arg5.IsWhole)
    (arg6 : Memref sig .tc .vmem S1x512x2048 .f32) (harg6 : arg6.IsWhole)
    (x0 : Vec F S1x512x64 .bf16) (x1 : Vec F S1x2048x64 .bf16) (x2 : Vec F S1x2048x64 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2) ∗ owns (c : Thread nD τ) arg6 fullShare (out1_4 x0 x1)) -∗ K ⟨⟩))
      ⊢ wp frame (wpE (defs₀ (F := F)) Variants.none c none) E (cc1__attn_kernel i arg2 harg2 arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]
theorem after1_4 (c : Dev nD) (t : Fin cfg1.N) :
    (dat1 V c).after 4 t = out1_4 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.Body

end
-- ==== Proof.RunI.lean ====
/-
  The whole program run: host operations, the projection region, host operations, the attention region, host
  operations. The buffers' contents at each of the six boundaries are a fold from the launch memory: a stretch of
  host operations applies its operations in order, a region leaves its input arrays as entered and each output array
  at what the write-backs of its blocks leave. Every weakly fair execution terminates, nothing faults, and at the end
  every buffer that outlives the regions holds the last boundary's contents: this gives both that the argument
  arrays end as launched and what the result arrays hold.
-/
import proofs.«138272_j50989851738367_2_alg».proof.Proof.BodyI
import proofs.«138272_j50989851738367_2_alg».proof.Proof.Gen.KernelIdeal.Regions

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first stretch of host operations (the projection's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (the attention's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last stretch: the contents at the return. -/
abbrev W5 : Dev nD → Valuation τ sig (Elt F) := fun c => StableHlo.after hostOps2 (W4 m ρ c)

/-! ### The arguments end as launched: no host operation writes one and no region's output array is one -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide : main_arg2 ∉ hostOps2_W)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide : main_arg4 ∉ hostOps2_W)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide : main_arg5 ∉ hostOps2_W)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (by decide : main_arg6 ∉ hostOps2_W)
    _ = W3 m ρ c (Proc.devRef .tc main_arg6) := W4_of_ne m ρ c main_arg6 (by decide)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the
    pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the
    pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- The run: from any memory with zero counters every weakly fair execution of the program terminates, nothing
    faulting, and every buffer that outlives the regions ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c)⟩) (run_main m ρ)

end Cert.KernelIdeal.Run

end
-- ==== Proof.Spec.lean ====
/-
  Multi-head self-attention as index-by-index functions on the extended reals.

  The input is x of shape [2, 2048, 1024] (batch, position, feature); each of the three projections has a weight
  matrix W of shape [1024, 1024] and a bias of 1024 entries, and maps row (b, s) of x to the 1024 numbers
  (Σ_k x[b,s,k] · W[e,k]) + bias[e]. The 1024 output features are 16 heads of 64: feature e = h·64 + d. A head of a
  batch is numbered g = b·16 + h, 32 in all.

  For per-head arrays Q, K, V (head g, position s, coordinate d): the scaled score of query position s against key
  position t is (Σ_d Q[g,s,d] · K[g,t,d]) · c, the row maximum over t starts from m₀, the unnormalised weight is
  exp(score − row maximum), the weight is that divided by the row's sum, and the output is Σ_t weight[g,s,t] · V[g,t,d].
  Here c is the single-precision pattern of 1/8 and m₀ that of −∞, kept as patterns: the same words stand on both sides
  of every comparison, so they are never evaluated.
-/
import Idealize.ShloMosaic.PureOps.Ideal
import Idealize.ShloMosaic.Lib.ValueIdx

noncomputable section

namespace Cert.Attn

open Idealize.ShloMosaic Idealize.ShloMosaic.ValueIdx

/-- Head `h` of batch `b`, numbered among the 32. -/
def bh (b : Fin 2) (h : Fin 16) : Fin 32 := ⟨b.val * 16 + h.val, by have := b.isLt; have := h.isLt; omega⟩
/-- The batch of head number `g`. -/
def gb (g : Fin 32) : Fin 2 := ⟨g.val / 16, by have := g.isLt; omega⟩
/-- The head within its batch of head number `g`. -/
def gh (g : Fin 32) : Fin 16 := ⟨g.val % 16, Nat.mod_lt _ (by norm_num)⟩
/-- Coordinate `d` of head `h` among the 1024 features. -/
def hd (h : Fin 16) (d : Fin 64) : Fin 1024 := ⟨h.val * 64 + d.val, by have := h.isLt; have := d.isLt; omega⟩

theorem gb_bh (b : Fin 2) (h : Fin 16) : gb (bh b h) = b := by
  apply Fin.ext; show (b.val * 16 + h.val) / 16 = b.val; have := h.isLt; omega
theorem gh_bh (b : Fin 2) (h : Fin 16) : gh (bh b h) = h := by
  apply Fin.ext; show (b.val * 16 + h.val) % 16 = h.val; have := h.isLt; omega
theorem bh_gb_gh (g : Fin 32) : bh (gb g) (gh g) = g := by
  apply Fin.ext; show g.val / 16 * 16 + g.val % 16 = g.val; omega

/-- Row `r` of the input flattened to [4096, 1024] is position `r mod 2048` of batch `r div 2048`. -/
def rowB (r : Fin 4096) : Fin 2 := ⟨r.val / 2048, by have := r.isLt; omega⟩
def rowS (r : Fin 4096) : Fin 2048 := ⟨r.val % 2048, Nat.mod_lt _ (by norm_num)⟩
def rowOf (b : Fin 2) (s : Fin 2048) : Fin 4096 := ⟨b.val * 2048 + s.val, by have := b.isLt; have := s.isLt; omega⟩
theorem rowB_rowOf (b : Fin 2) (s : Fin 2048) : rowB (rowOf b s) = b := by
  apply Fin.ext; show (b.val * 2048 + s.val) / 2048 = b.val; have := s.isLt; omega
theorem rowS_rowOf (b : Fin 2) (s : Fin 2048) : rowS (rowOf b s) = s := by
  apply Fin.ext; show (b.val * 2048 + s.val) % 2048 = s.val; have := s.isLt; omega
/-- Feature `e` of projection number `j` (0 the queries', 1 the keys', 2 the values') among the 3072 columns of the
    three projections side by side. -/
def col (j : Fin 3) (e : Fin 1024) : Fin 3072 := ⟨j.val * 1024 + e.val, by have := j.isLt; have := e.isLt; omega⟩

/-- The scale 1/8 and the starting value −∞ of a row maximum, as single-precision patterns. -/
abbrev c8 : EReal := Ideal.ofBits .f32 0x3E000000#32
abbrev ninf : EReal := Ideal.ofBits .f32 0xFF800000#32

/-- One projection: row `(b, s)` of `x` against row `e` of `W`, plus the bias at `e`. -/
def proj (X : FVec Ideal ⟨3, ![2, 2048, 1024]⟩ .f32) (W : FVec Ideal ⟨2, ![1024, 1024]⟩ .f32) (B : FVec Ideal ⟨1, ![1024]⟩ .f32)
    (b : Fin 2) (s : Fin 2048) (e : Fin 1024) : EReal :=
  (∑ k : Fin 1024, X (ix3 b s k) * W (ix2 e k)) + B (ix1 e)

/-- The projection split into heads: head number `g`, position `s`, coordinate `d`. -/
def projH (X : FVec Ideal ⟨3, ![2, 2048, 1024]⟩ .f32) (W : FVec Ideal ⟨2, ![1024, 1024]⟩ .f32) (B : FVec Ideal ⟨1, ![1024]⟩ .f32)
    (g : Fin 32) (s : Fin 2048) (d : Fin 64) : EReal :=
  proj X W B (gb g) s (hd (gh g) d)

theorem projH_bh (X : FVec Ideal ⟨3, ![2, 2048, 1024]⟩ .f32) (W : FVec Ideal ⟨2, ![1024, 1024]⟩ .f32) (B : FVec Ideal ⟨1, ![1024]⟩ .f32)
    (b : Fin 2) (h : Fin 16) (s : Fin 2048) (d : Fin 64) :
    projH X W B (bh b h) s d = proj X W B b s (hd h d) := by
  unfold projH; rw [gb_bh, gh_bh]

section
variable (Q K V : Fin 32 → Fin 2048 → Fin 64 → EReal)

/-- The scaled score of query position `s` against key position `t` in head `g`. -/
def score (g : Fin 32) (s t : Fin 2048) : EReal := (∑ d : Fin 64, Q g s d * K g t d) * c8
/-- The maximum of a row of scores. -/
def rowmax (g : Fin 32) (s : Fin 2048) : EReal := (Finset.univ : Finset (Fin 2048)).fold max ninf (fun t => score Q K g s t)
/-- The unnormalised weight. -/
def pexp (g : Fin 32) (s t : Fin 2048) : EReal := Ideal.exp (score Q K g s t - rowmax Q K g s)
/-- The sum of a row of unnormalised weights. -/
def denom (g : Fin 32) (s : Fin 2048) : EReal := ∑ t : Fin 2048, pexp Q K g s t
/-- The attention weight. -/
def probs (g : Fin 32) (s t : Fin 2048) : EReal := Ideal.div (pexp Q K g s t) (denom Q K g s)
/-- The weighted values. -/
def ctx (g : Fin 32) (s : Fin 2048) (d : Fin 64) : EReal := ∑ t : Fin 2048, probs Q K g s t * V g t d
end

end Cert.Attn

end
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.LibRowSum.lean ====
/-
  The sum of a row of a rank-2 array, read at the row.

  A kernel's vector reduction by addition of an `[a, b]` array along its second axis keeps one value per row.
  Over the extended reals addition is exact, so the value at row `r` is the plain sum over the row's `b` entries,
  `∑ k, src (r, k)`, whatever order the hardware adds them in (`multiReduction_add_row`).
-/
import proofs.«138272_j50989851738367_2_alg».proof.Proof.LibColumns

noncomputable section

namespace Cert.RowSum

open Idealize.ShloMosaic Idealize.ShloMosaic.ValueIdx

/-- A kernel's sum of an `[a, b]` array along its second axis, at the extended reals, read at row `r`: the sum of the
    row's `b` entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact congrArg (fun f => Finset.sum (Finset.univ : Finset (Fin b)) f)
    (funext fun k => congrArg src (Cert.Columns.lift_row h r k))

end Cert.RowSum

end
-- ==== Proof.AttnPay.lean ====
/-
  The attention body's arithmetic, read at an index on the extended reals.

  The body holds a block of 512 query rows q (as [1, 512, 64]) and a head's 2048 key rows k and value rows v (as
  [1, 2048, 64]). Its scores are the products q·kᵀ scaled by c; a row of weights is the row's scores minus the row's
  maximum, exponentiated, divided by the row's sum; the weighted values are the weights times v. Each step read at an
  index: the two products are sums over the contracted coordinate, the row maximum and row sum are a fold and a sum
  over the row broadcast back along it, everything else is entry by entry.
-/
import proofs.«138272_j50989851738367_2_alg».proof.Proof.Gen.KernelIdeal.Skeleton
import proofs.«138272_j50989851738367_2_alg».proof.Proof.Spec
import proofs.«138272_j50989851738367_2_alg».proof.Proof.LibColumns
import proofs.«138272_j50989851738367_2_alg».proof.Proof.LibRowSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.AttnPay

open Cert.KernelIdeal Cert.KernelIdeal.Gen Cert.Attn
open Idealize.ShloMosaic Idealize.ShloMosaic.ValueIdx

/-! ## The two matrix products as sums -/

/-- On an axis that is not contracted, an operand's index is the output's coordinate on the matching axis. -/
theorem qk_lhs_0 (i : S512x2048.Idx) (q : dot_S512x64_S2048x64_S512x2048_1_1_0_0_n_n.contr.Idx) : (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem qk_rhs_0 (i : S512x2048.Idx) (q : dot_S512x64_S2048x64_S512x2048_1_1_0_0_n_n.contr.Idx) : (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem pv_lhs_0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem pv_rhs_1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The scores' product: entry (p, t) of a·bᵀ is the sum over the 64 coordinates of a[p, d] · b[t, d]. -/
theorem matmul_qk (a : FVec Ideal S512x64 .bf16) (b : FVec Ideal S2048x64 .bf16) (p : Fin 512) (t : Fin 2048) :
    matmul dot_S512x64_S2048x64_S512x2048_1_1_0_0_n_n none a b (constant (F := Ideal) S512x2048 .f32 0x00000000#32) (ix2 p t)
      = ∑ d : Fin 64, a (ix2 p d) * b (ix2 t d) := by
  refine (Ideal.matmul_constant_zero_apply dot_S512x64_S2048x64_S512x2048_1_1_0_0_n_n none a b (ix2 p t)).trans ?_
  rw [← Equiv.sum_comp (contrEquiv1 dot_S512x64_S2048x64_S512x2048_1_1_0_0_n_n 64 rfl rfl).symm]
  refine Finset.sum_congr rfl fun d _ => ?_
  have hk := contrEquiv1_symm_val dot_S512x64_S2048x64_S512x2048_1_1_0_0_n_n 64 rfl rfl d
  have el : dot_S512x64_S2048x64_S512x2048_1_1_0_0_n_n.lhsIdx (ix2 p t) ((contrEquiv1 dot_S512x64_S2048x64_S512x2048_1_1_0_0_n_n 64 rfl rfl).symm d) = ix2 p d :=
    funext fun ax => Fin.ext (by
      match ax with
      | ⟨0, _⟩ => exact qk_lhs_0 _ _
      | ⟨1, _⟩ => exact (dot_S512x64_S2048x64_S512x2048_1_1_0_0_n_n.lhsIdx_val_of_single rfl _ _).trans hk)
  have er : dot_S512x64_S2048x64_S512x2048_1_1_0_0_n_n.rhsIdx (ix2 p t) ((contrEquiv1 dot_S512x64_S2048x64_S512x2048_1_1_0_0_n_n 64 rfl rfl).symm d) = ix2 t d :=
    funext fun ax => Fin.ext (by
      match ax with
      | ⟨0, _⟩ => exact qk_rhs_0 _ _
      | ⟨1, _⟩ => exact (dot_S512x64_S2048x64_S512x2048_1_1_0_0_n_n.rhsIdx_val_of_single rfl _ _).trans hk)
  rw [el, er]

/-- The weighted values' product: entry (p, d) of w·v is the sum over the 2048 positions of w[p, t] · v[t, d]. -/
theorem matmul_pv (w : FVec Ideal S512x2048 .bf16) (v : FVec Ideal S2048x64 .bf16) (p : Fin 512) (d : Fin 64) :
    matmul dot_S512x2048_S2048x64_S512x64_1_0_0_1_n_n none w v (constant (F := Ideal) S512x64 .f32 0x00000000#32) (ix2 p d)
      = ∑ t : Fin 2048, w (ix2 p t) * v (ix2 t d) := by
  refine (Ideal.matmul_constant_zero_apply dot_S512x2048_S2048x64_S512x64_1_0_0_1_n_n none w v (ix2 p d)).trans ?_
  rw [← Equiv.sum_comp (contrEquiv1 dot_S512x2048_S2048x64_S512x64_1_0_0_1_n_n 2048 rfl rfl).symm]
  refine Finset.sum_congr rfl fun t _ => ?_
  have hk := contrEquiv1_symm_val dot_S512x2048_S2048x64_S512x64_1_0_0_1_n_n 2048 rfl rfl t
  have el : dot_S512x2048_S2048x64_S512x64_1_0_0_1_n_n.lhsIdx (ix2 p d) ((contrEquiv1 dot_S512x2048_S2048x64_S512x64_1_0_0_1_n_n 2048 rfl rfl).symm t) = ix2 p t :=
    funext fun ax => Fin.ext (by
      match ax with
      | ⟨0, _⟩ => exact pv_lhs_0 _ _
      | ⟨1, _⟩ => exact (dot_S512x2048_S2048x64_S512x64_1_0_0_1_n_n.lhsIdx_val_of_single rfl _ _).trans hk)
  have er : dot_S512x2048_S2048x64_S512x64_1_0_0_1_n_n.rhsIdx (ix2 p d) ((contrEquiv1 dot_S512x2048_S2048x64_S512x64_1_0_0_1_n_n 2048 rfl rfl).symm t) = ix2 t d :=
    funext fun ax => Fin.ext (by
      match ax with
      | ⟨0, _⟩ => exact (dot_S512x2048_S2048x64_S512x64_1_0_0_1_n_n.rhsIdx_val_of_single rfl _ _).trans hk
      | ⟨1, _⟩ => exact pv_rhs_1 _ _)
  rw [el, er]

/-! ## A row's maximum and sum, broadcast back along the row -/

/-- The row maxima of a [512, 2048] array, kept as a column and broadcast back: at (p, t) the fold of max over row p. -/
theorem rowmax_bcast (sc : FVec Ideal S512x2048 .f32) (p : Fin 512) (t : Fin 2048) :
    broadcastTo S512x2048 (shapeCast S512x1 (multiReduction .maximumf [1] S512 sc 0xFF800000#32 reduces_S512x2048_S512 (.inl rfl) rfl) shapeCasts_S512_S512x1) broadcasts_S512x1_S512x2048 (ix2 p t)
      = (Finset.univ : Finset (Fin 2048)).fold max ninf (fun k => sc (ix2 p k)) := by
  refine (Cert.Columns.broadcastTo_a1_ab_apply _ _ p t).trans ?_
  refine (Cert.Columns.shapeCast_a_a1_apply _ _ p 0).trans ?_
  exact Cert.Columns.multiReduction_maximumf_row sc _ _ _ _ p

/-- The row sums likewise: at (p, t) the sum of row p. -/
theorem rowsum_bcast (e : FVec Ideal S512x2048 .f32) (p : Fin 512) (t : Fin 2048) :
    broadcastTo S512x2048 (shapeCast S512x1 (multiReduction .add [1] S512 e 0x00000000#32 reduces_S512x2048_S512 (.inl rfl) rfl) shapeCasts_S512_S512x1) broadcasts_S512x1_S512x2048 (ix2 p t)
      = ∑ k : Fin 2048, e (ix2 p k) := by
  refine (Cert.Columns.broadcastTo_a1_ab_apply _ _ p t).trans ?_
  refine (Cert.Columns.shapeCast_a_a1_apply _ _ p 0).trans ?_
  exact Cert.RowSum.multiReduction_add_row e _ _ _ _ p

/-! ## A row of weights -/

/-- The weights of a score array whose row p reads `s`: exp(s t − max s) over the sum of those. -/
theorem softmax_row (sc : FVec Ideal S512x2048 .f32) (s : Fin 2048 → EReal) (p : Fin 512) (hs : ∀ k, sc (ix2 p k) = s k) (t : Fin 2048) :
    divf (exp (subf sc (broadcastTo S512x2048 (shapeCast S512x1 (multiReduction .maximumf [1] S512 sc 0xFF800000#32 reduces_S512x2048_S512 (.inl rfl) rfl) shapeCasts_S512_S512x1) broadcasts_S512x1_S512x2048)))
        (broadcastTo S512x2048 (shapeCast S512x1 (multiReduction .add [1] S512
          (exp (subf sc (broadcastTo S512x2048 (shapeCast S512x1 (multiReduction .maximumf [1] S512 sc 0xFF800000#32 reduces_S512x2048_S512 (.inl rfl) rfl) shapeCasts_S512_S512x1) broadcasts_S512x1_S512x2048)))
          0x00000000#32 reduces_S512x2048_S512 (.inl rfl) rfl) shapeCasts_S512_S512x1) broadcasts_S512x1_S512x2048) (ix2 p t)
      = Ideal.div (Ideal.exp (s t - (Finset.univ : Finset (Fin 2048)).fold max ninf s))
          (∑ k : Fin 2048, Ideal.exp (s k - (Finset.univ : Finset (Fin 2048)).fold max ninf s)) := by
  have hm : ∀ k, broadcastTo S512x2048 (shapeCast S512x1 (multiReduction .maximumf [1] S512 sc 0xFF800000#32 reduces_S512x2048_S512 (.inl rfl) rfl) shapeCasts_S512_S512x1) broadcasts_S512x1_S512x2048 (ix2 p k)
      = (Finset.univ : Finset (Fin 2048)).fold max ninf s := fun k =>
    (rowmax_bcast sc p k).trans (congrArg (fun f => Finset.fold max ninf f (Finset.univ : Finset (Fin 2048))) (funext hs))
  have he : ∀ k, exp (subf sc (broadcastTo S512x2048 (shapeCast S512x1 (multiReduction .maximumf [1] S512 sc 0xFF800000#32 reduces_S512x2048_S512 (.inl rfl) rfl) shapeCasts_S512_S512x1) broadcasts_S512x1_S512x2048)) (ix2 p k)
      = Ideal.exp (s k - (Finset.univ : Finset (Fin 2048)).fold max ninf s) := fun k =>
    (congrArg Ideal.exp (congrArg₂ (· - ·) (hs k) (hm k)) :)
  refine (divf_apply _ _ _).trans (congrArg₂ Ideal.div (he t) ?_)
  refine (rowsum_bcast _ p t).trans ?_
  exact Finset.sum_congr rfl fun k _ => he k

/-! ## The payloads -/

/-- The weights the body computes from its blocks, at (p, t): the specification's weight of query row p against key
    row t, for any per-head arrays whose head g has the block's rows at position s (queries) and at every position (keys). -/
theorem pay1_apply (x0 : FVec Ideal S1x512x64 .bf16) (x1 : FVec Ideal S1x2048x64 .bf16) (Q K : Fin 32 → Fin 2048 → Fin 64 → EReal)
    (g : Fin 32) (s : Fin 2048) (p : Fin 512) (hq : ∀ d, x0 (ix3 0 p d) = Q g s d) (hk : ∀ t d, x1 (ix3 0 t d) = K g t d) (t : Fin 2048) :
    k1_pay1 (F := Ideal) x0 x1 (ix2 p t) = probs Q K g s t := by
  unfold k1_pay1
  refine (softmax_row _ (fun k => score Q K g s k) p (fun k => ?_) t).trans ?_
  · refine (mulf_apply _ _ _).trans (congrArg₂ (· * ·) ?_ rfl)
    refine (matmul_qk _ _ p k).trans (Finset.sum_congr rfl fun d _ => ?_)
    exact congrArg₂ (· * ·) ((shapeCast_1ab_ab_apply x0 _ p d).trans (hq d)) ((shapeCast_1ab_ab_apply x1 _ k d).trans (hk k d))
  · rfl

/-- The stored weights block, at (0, p, t). -/
theorem pay2_apply (x0 : FVec Ideal S1x512x64 .bf16) (x1 : FVec Ideal S1x2048x64 .bf16) (Q K : Fin 32 → Fin 2048 → Fin 64 → EReal)
    (g : Fin 32) (s : Fin 2048) (p : Fin 512) (hq : ∀ d, x0 (ix3 0 p d) = Q g s d) (hk : ∀ t d, x1 (ix3 0 t d) = K g t d) (u : Fin 1) (t : Fin 2048) :
    k1_pay2 (F := Ideal) x0 x1 (ix3 u p t) = probs Q K g s t := by
  unfold k1_pay2
  exact (shapeCast_ab_1ab_apply _ _ u p t).trans (pay1_apply x0 x1 Q K g s p hq hk t)

/-- The stored weighted-values block, at (0, p, d). -/
theorem pay3_apply (x0 : FVec Ideal S1x512x64 .bf16) (x1 x2 : FVec Ideal S1x2048x64 .bf16) (Q K V : Fin 32 → Fin 2048 → Fin 64 → EReal)
    (g : Fin 32) (s : Fin 2048) (p : Fin 512) (hq : ∀ d, x0 (ix3 0 p d) = Q g s d) (hk : ∀ t d, x1 (ix3 0 t d) = K g t d)
    (hv : ∀ t d, x2 (ix3 0 t d) = V g t d) (u : Fin 1) (d : Fin 64) :
    k1_pay3 (F := Ideal) x0 x1 x2 (ix3 u p d) = ctx Q K V g s d := by
  unfold k1_pay3
  refine (shapeCast_ab_1ab_apply _ _ u p d).trans ?_
  refine (matmul_pv _ _ p d).trans (Finset.sum_congr rfl fun t _ => ?_)
  exact congrArg₂ (· * ·) (pay1_apply x0 x1 Q K g s p hq hk t) ((shapeCast_1ab_ab_apply x2 _ t d).trans (hv t d))

end Cert.KernelIdeal.AttnPay

end
-- ==== Proof.LibUnitZero.lean ====
/-
  Two readings through a whole buffer's own view, at any value type.

  A memref that is a whole buffer, held at the contents that read as X, loaded through the unit-stride rectangle at
  zero offsets of the buffer's own sizes, reads X; and one store through that rectangle, read back through the view,
  is the stored payload, whatever the buffer held before.
-/
import Idealize.ShloMosaic.Lib.Pipeline.FrameBody
import Idealize.ShloMosaic.Lib.Pipeline.Frame
import Idealize.ShloMosaic.Lib.Pipeline.Value

noncomputable section

namespace Idealize.ShloMosaic

open Idealize.SL Idealize.SL.Sem

/-- The rank-2 zero offsets, spelt as a literal vector, are the constant zero function. -/
theorem zeroOff2 : (![0, 0] : Fin 2 → ℕ) = fun _ => 0 := by funext a; fin_cases a <;> rfl
/-- The rank-3 zero offsets likewise. -/
theorem zeroOff3 : (![0, 0, 0] : Fin 3 → ℕ) = fun _ => 0 := by funext a; fin_cases a <;> rfl

namespace View

variable {Val : EltTy → Type} {S : Shape} {e : EltTy} {sig : RefSig} {κ : Kind} {sp : Space}

/-- One store through the whole-shape rectangle at zero offsets, read back through the view: the payload. -/
theorem read_writes_unit_zero [∀ e, Nonempty (Val e)] (v : View sig κ sp S e) (f : v.ty.Contents Val)
    {off : Fin S.rank → Nat} (h : off = fun _ => 0) (inb : ∀ a, off a + S.size a ≤ S.size a) (w : S.Idx → Val e) :
    v.read Val (v.writes Val f [(⟨Rect.unit off S.size inb, w⟩ : Piece Val S e)]) = w := by
  rw [View.read_writes_eq_canon v f _ (fun y => ⟨_, List.mem_singleton_self _, View.mem_set_unit_zero h inb y⟩),
    View.canon_unit_zero h inb]

end View

namespace Memref.IsWhole

variable {Val : EltTy → Type} {S : Shape} {e : EltTy} {sig : RefSig} {κ : Kind} {sp : Space}

/-- A whole memref held at the contents that read as `X`, loaded through the whole-shape rectangle at zero offsets, reads `X`. -/
theorem readAt_unread_unit_zero {m : Memref sig κ sp S e} (hm : m.IsWhole) {off : Fin S.rank → Nat} (h : off = fun _ => 0)
    (inb : ∀ a, off a + S.size a ≤ S.size a) (X : S.Idx → Val e) :
    m.view.readAt Val (Rect.unit off S.size inb).toLoadRect (hm.unread X) = X := by
  rw [View.readAt_eq_ld, hm.read_unread, View.ld_unit_zero h inb]

end Memref.IsWhole

end Idealize.ShloMosaic

end
-- ==== Proof.AttnValue.lean ====
/-
  What the attention region leaves in its two result arrays, as functions of the arrays it is entered with.

  The region's grid has 128 points: point tt works on head tt div 4 and on the block of 512 query positions numbered
  tt mod 4. Its query block is rows (tt mod 4)·512 … of the head's query array, its key and value blocks are the head's
  whole arrays, and it writes back the weights' rows and the weighted values' rows of the same 512 positions. So every
  block written back is a block of ONE function of the whole index — the specification's weights and weighted values of
  the per-head arrays as entered — and the 128 blocks tile both result arrays.
-/
import proofs.«138272_j50989851738367_2_alg».proof.Proof.RunI
import proofs.«138272_j50989851738367_2_alg».proof.Proof.AttnPay
import proofs.«138272_j50989851738367_2_alg».proof.Proof.LibUnitZero

set_option maxRecDepth 16384

noncomputable section

namespace Cert.KernelIdeal.AttnValue

open Cert.KernelIdeal Cert.KernelIdeal.Gen Cert.KernelIdeal.Body Cert.KernelIdeal.Run Cert.KernelIdeal.AttnPay Cert.Attn
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg) (c : Dev nD)

/-! ## The per-head arrays the region is entered with -/

def Q3 (g : Fin 32) (s : Fin 2048) (d : Fin 64) : EReal := V3 m ρ c main_v14 (ix3 g s d)
def K3 (g : Fin 32) (s : Fin 2048) (d : Fin 64) : EReal := V3 m ρ c main_v17 (ix3 g s d)
def Vv3 (g : Fin 32) (s : Fin 2048) (d : Fin 64) : EReal := V3 m ρ c main_v20 (ix3 g s d)

/-- The weights array the region ends with, and the weighted-values array. -/
def G4 : S32x2048x2048.Idx → EReal := fun i =>
  probs (Q3 m ρ c) (K3 m ρ c) ⟨(i 0).val, (i 0).isLt⟩ ⟨(i 1).val, (i 1).isLt⟩ ⟨(i 2).val, (i 2).isLt⟩
def G3 : S32x2048x64.Idx → EReal := fun i =>
  ctx (Q3 m ρ c) (K3 m ρ c) (Vv3 m ρ c) ⟨(i 0).val, (i 0).isLt⟩ ⟨(i 1).val, (i 1).isLt⟩ ⟨(i 2).val, (i 2).isLt⟩

/-! ## The grid's points -/

theorem lt128 (tt : Fin cfg1.N) : tt.val < 128 := lt_of_lt_of_eq tt.isLt N_1
/-- The head a point works on, and the position of row p of its block. -/
def pg (tt : Fin cfg1.N) : Fin 32 := ⟨tt.val / 4, by have := lt128 tt; omega⟩
def ps (tt : Fin cfg1.N) (p : Fin 512) : Fin 2048 := ⟨tt.val % 4 * 512 + p.val, by have := p.isLt; omega⟩

/-- The printed index maps, decided over the grid. -/
theorem idx_facts1 : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = t.val % 4 ∧ win1_3.index t (2 : Fin 3) = 0
    ∧ win1_4.index t (0 : Fin 3) = t.val / 4 ∧ win1_4.index t (1 : Fin 3) = t.val % 4 ∧ win1_4.index t (2 : Fin 3) = 0 :=
  (by decide +kernel : ∀ t : Fin grid1.N, _)

/-! ## The input blocks, read where their rectangles say -/

theorem read_q (tt : Fin cfg1.N) (p : Fin 512) (d : Fin 64) :
    iblk1 (V3 m ρ) c 0 tt (ix3 (0 : Fin 1) p d) = Q3 m ρ c (pg tt) (ps tt p) d := by
  show V3 m ρ c main_v14 (((cfg1.win 0).blk tt).view.emb (ix3 (0 : Fin 1) p d)) = V3 m ρ c main_v14 (ix3 (pg tt) (ps tt p) d)
  refine congrArg (V3 m ρ c main_v14) (funext fun a => Fin.ext ?_)
  obtain ⟨e0, e1, e2, -⟩ := idx_facts1 tt
  match a with
  | ⟨0, _⟩ => show win1_0.index tt (0 : Fin 3) * 1 + 1 * 0 = tt.val / 4; omega
  | ⟨1, _⟩ => show win1_0.index tt (1 : Fin 3) * 512 + 1 * p.val = tt.val % 4 * 512 + p.val; omega
  | ⟨2, _⟩ => show win1_0.index tt (2 : Fin 3) * 64 + 1 * d.val = d.val; omega

theorem read_k (tt : Fin cfg1.N) (t : Fin 2048) (d : Fin 64) :
    iblk1 (V3 m ρ) c 1 tt (ix3 (0 : Fin 1) t d) = K3 m ρ c (pg tt) t d := by
  show V3 m ρ c main_v17 (((cfg1.win 1).blk tt).view.emb (ix3 (0 : Fin 1) t d)) = V3 m ρ c main_v17 (ix3 (pg tt) t d)
  refine congrArg (V3 m ρ c main_v17) (funext fun a => Fin.ext ?_)
  obtain ⟨-, -, -, e0, e1, e2, -⟩ := idx_facts1 tt
  match a with
  | ⟨0, _⟩ => show win1_1.index tt (0 : Fin 3) * 1 + 1 * 0 = tt.val / 4; omega
  | ⟨1, _⟩ => show win1_1.index tt (1 : Fin 3) * 2048 + 1 * t.val = t.val; omega
  | ⟨2, _⟩ => show win1_1.index tt (2 : Fin 3) * 64 + 1 * d.val = d.val; omega

theorem read_v (tt : Fin cfg1.N) (t : Fin 2048) (d : Fin 64) :
    iblk1 (V3 m ρ) c 2 tt (ix3 (0 : Fin 1) t d) = Vv3 m ρ c (pg tt) t d := by
  show V3 m ρ c main_v20 (((cfg1.win 2).blk tt).view.emb (ix3 (0 : Fin 1) t d)) = V3 m ρ c main_v20 (ix3 (pg tt) t d)
  refine congrArg (V3 m ρ c main_v20) (funext fun a => Fin.ext ?_)
  obtain ⟨-, -, -, -, -, -, e0, e1, e2, -⟩ := idx_facts1 tt
  match a with
  | ⟨0, _⟩ => show win1_2.index tt (0 : Fin 3) * 1 + 1 * 0 = tt.val / 4; omega
  | ⟨1, _⟩ => show win1_2.index tt (1 : Fin 3) * 2048 + 1 * t.val = t.val; omega
  | ⟨2, _⟩ => show win1_2.index tt (2 : Fin 3) * 64 + 1 * d.val = d.val; omega

/-! ## What a point writes back -/

/-- The weights block of point tt, entry by entry, is the weights array at the block's place. -/
theorem block4 (tt : Fin cfg1.N) (y : S1x512x2048.Idx) :
    k1_pay2 (iblk1 (V3 m ρ) c 0 tt) (iblk1 (V3 m ρ) c 1 tt) y = G4 m ρ c (((cfg1.win 4).blk tt).view.emb y) := by
  obtain ⟨u, p, t, rfl⟩ : ∃ (u : Fin 1) (p : Fin 512) (t : Fin 2048), y = ix3 u p t := ⟨y 0, y 1, y 2, eq_ix3 y⟩
  refine (pay2_apply _ _ (Q3 m ρ c) (K3 m ρ c) (pg tt) (ps tt p) p (fun d => read_q m ρ c tt p d) (fun t d => read_k m ρ c tt t d) u t).trans ?_
  obtain ⟨-, -, -, -, -, -, -, -, -, -, -, -, e0, e1, e2⟩ := idx_facts1 tt
  have hu : u.val = 0 := by omega
  unfold G4
  refine congr (congr (congrArg (probs (Q3 m ρ c) (K3 m ρ c)) (Fin.ext ?_)) (Fin.ext ?_)) (Fin.ext ?_)
  · show tt.val / 4 = win1_4.index tt (0 : Fin 3) * 1 + 1 * u.val; omega
  · show tt.val % 4 * 512 + p.val = win1_4.index tt (1 : Fin 3) * 512 + 1 * p.val; omega
  · show t.val = win1_4.index tt (2 : Fin 3) * 2048 + 1 * t.val; omega

/-- The weighted-values block of point tt likewise. -/
theorem block3 (tt : Fin cfg1.N) (y : S1x512x64.Idx) :
    k1_pay3 (iblk1 (V3 m ρ) c 0 tt) (iblk1 (V3 m ρ) c 1 tt) (iblk1 (V3 m ρ) c 2 tt) y = G3 m ρ c (((cfg1.win 3).blk tt).view.emb y) := by
  obtain ⟨u, p, d, rfl⟩ : ∃ (u : Fin 1) (p : Fin 512) (d : Fin 64), y = ix3 u p d := ⟨y 0, y 1, y 2, eq_ix3 y⟩
  refine (pay3_apply _ _ _ (Q3 m ρ c) (K3 m ρ c) (Vv3 m ρ c) (pg tt) (ps tt p) p (fun d => read_q m ρ c tt p d) (fun t d => read_k m ρ c tt t d)
    (fun t d => read_v m ρ c tt t d) u d).trans ?_
  obtain ⟨-, -, -, -, -, -, -, -, -, e0, e1, e2, -⟩ := idx_facts1 tt
  have hu : u.val = 0 := by omega
  unfold G3
  refine congr (congr (congrArg (ctx (Q3 m ρ c) (K3 m ρ c) (Vv3 m ρ c)) (Fin.ext ?_)) (Fin.ext ?_)) (Fin.ext ?_)
  · show tt.val / 4 = win1_3.index tt (0 : Fin 3) * 1 + 1 * u.val; omega
  · show tt.val % 4 * 512 + p.val = win1_3.index tt (1 : Fin 3) * 512 + 1 * p.val; omega
  · show d.val = win1_3.index tt (2 : Fin 3) * 64 + 1 * d.val; omega

theorem flushed4_eq (tt : Fin cfg1.N) :
    (dat1 (V3 m ρ) c).flushed 4 tt = ((cfg1.win 4).blk tt).view.read (Elt Ideal) (G4 m ρ c) := by
  show (cfg1.win 4).cut (grid1.coords tt) ((dat1 (V3 m ρ) c).after 4 tt) = _
  rw [after1_4]
  unfold out1_4
  rw [View.canon_unit_zero zeroOff3]
  simp only [View.ld_unit_zero (S := S1x512x64) zeroOff3, View.ld_unit_zero (S := S1x2048x64) zeroOff3]
  funext j
  exact block4 m ρ c tt j

theorem flushed3_eq (tt : Fin cfg1.N) :
    (dat1 (V3 m ρ) c).flushed 3 tt = ((cfg1.win 3).blk tt).view.read (Elt Ideal) (G3 m ρ c) := by
  show (cfg1.win 3).cut (grid1.coords tt) ((dat1 (V3 m ρ) c).after 3 tt) = _
  rw [after1_3]
  unfold out1_3
  rw [View.canon_unit_zero zeroOff3]
  simp only [View.ld_unit_zero (S := S1x512x64) zeroOff3, View.ld_unit_zero (S := S1x2048x64) zeroOff3]
  funext j
  exact block3 m ρ c tt j

/-! ## The blocks tile the arrays -/

theorem mem_blk4 (t : Fin cfg1.N) (i : S32x2048x2048.Idx) :
    i ∈ ((cfg1.win 4).blk t).view.set ↔ ∀ a : Fin 3, win1_4.index t a * S1x512x2048.size a ≤ (i a).val ∧ (i a).val < win1_4.index t a * S1x512x2048.size a + S1x512x2048.size a := by
  show i ∈ ((View.whole main_v21_1).slice (win1_4.rect t)).set ↔ _
  rw [View.set_slice_whole, Rect.mem_set_unit]
  exact Iff.rfl

theorem mem_blk3 (t : Fin cfg1.N) (i : S32x2048x64.Idx) :
    i ∈ ((cfg1.win 3).blk t).view.set ↔ ∀ a : Fin 3, win1_3.index t a * S1x512x64.size a ≤ (i a).val ∧ (i a).val < win1_3.index t a * S1x512x64.size a + S1x512x64.size a := by
  show i ∈ ((View.whole main_v21_0).slice (win1_3.rect t)).set ↔ _
  rw [View.set_slice_whole, Rect.mem_set_unit]
  exact Iff.rfl

/-- Index (g, s, ·) lies in the block of point 4·g + s div 512. -/
theorem cover4 (i : S32x2048x2048.Idx) : ∃ t : Fin cfg1.N, (cfg1.win 4).flush t = true ∧ i ∈ ((cfg1.win 4).blk t).view.set := by
  have h0 : (i 0).val < 32 := (i 0).isLt
  have h1 : (i 1).val < 2048 := (i 1).isLt
  have h2 : (i 2).val < 2048 := (i 2).isLt
  let t : Fin cfg1.N := ⟨(i 0).val * 4 + (i 1).val / 512, by rw [show cfg1.N = 128 from N_1]; omega⟩
  refine ⟨t, flush1_4 t, ?_⟩
  rw [mem_blk4]
  obtain ⟨-, -, -, -, -, -, -, -, -, -, -, -, e0, e1, e2⟩ := idx_facts1 t
  have ht : t.val = (i 0).val * 4 + (i 1).val / 512 := rfl
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 2048 ≤ (i 2).val ∧ (i 2).val < win1_4.index t (2 : Fin 3) * 2048 + 2048; omega

theorem cover3 (i : S32x2048x64.Idx) : ∃ t : Fin cfg1.N, (cfg1.win 3).flush t = true ∧ i ∈ ((cfg1.win 3).blk t).view.set := by
  have h0 : (i 0).val < 32 := (i 0).isLt
  have h1 : (i 1).val < 2048 := (i 1).isLt
  have h2 : (i 2).val < 64 := (i 2).isLt
  let t : Fin cfg1.N := ⟨(i 0).val * 4 + (i 1).val / 512, by rw [show cfg1.N = 128 from N_1]; omega⟩
  refine ⟨t, flush1_3 t, ?_⟩
  rw [mem_blk3]
  obtain ⟨-, -, -, -, -, -, -, -, -, e0, e1, e2, -⟩ := idx_facts1 t
  have ht : t.val = (i 0).val * 4 + (i 1).val / 512 := rfl
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 64 ≤ (i 2).val ∧ (i 2).val < win1_3.index t (2 : Fin 3) * 64 + 64; omega

/-! ## The region's result arrays -/

theorem final4 : (dat1 (V3 m ρ) c).arrAt 4 cfg1.N = G4 m ρ c :=
  (dat1 (V3 m ρ) c).arrAt_eq_of_cover 4 (G4 m ρ c) (fun t _ => flushed4_eq m ρ c t) (cover4)

theorem final3 : (dat1 (V3 m ρ) c).arrAt 3 cfg1.N = G3 m ρ c :=
  (dat1 (V3 m ρ) c).arrAt_eq_of_cover 3 (G3 m ρ c) (fun t _ => flushed3_eq m ρ c t) (cover3)

/-- At the region's exit the weights array holds the specification's weights of the entry arrays, -/
theorem W4_probs (g : Fin 32) (s t : Fin 2048) :
    W4 m ρ c (Proc.devRef .tc main_v21_1) (ix3 g s t) = probs (Q3 m ρ c) (K3 m ρ c) g s t := by
  rw [show W4 m ρ c (Proc.devRef .tc main_v21_1) = (dat1 (V3 m ρ) c).arrAt 4 cfg1.N from W4_arr m ρ c 4, final4]
  rfl

/-- and the weighted-values array the specification's weighted values. -/
theorem W4_ctx (g : Fin 32) (s : Fin 2048) (d : Fin 64) :
    W4 m ρ c (Proc.devRef .tc main_v21_0) (ix3 g s d) = ctx (Q3 m ρ c) (K3 m ρ c) (Vv3 m ρ c) g s d := by
  rw [show W4 m ρ c (Proc.devRef .tc main_v21_0) = (dat1 (V3 m ρ) c).arrAt 3 cfg1.N from W4_arr m ρ c 3, final3]
  rfl

end Cert.KernelIdeal.AttnValue

end
-- ==== Proof.HeadsLayout.lean ====
/-
  Between the two kernel regions the three projections, which the first region leaves side by side as the 3072
  columns of one array of 4096 rows (row r = b·2048 + s for batch b and position s; column j·1024 + e for feature e of
  projection j), are re-laid into per-head arrays of shape [32, 2048, 64]. Each projection is cut out as a block of 1024
  columns, its 1024 features are split into 16 heads of 64 (e = h·64 + d), the position axis and the head axis are
  exchanged, and batch and head are merged into the head number g = b·16 + h.

  Read at (g, s, d) the result is therefore the projected array at row (g div 16)·2048 + s and column
  j·1024 + (g mod 16)·64 + d: every step only renames positions, so each is an equality of row-major positions,
  a permutation of coordinates, or a shift of one coordinate by the block's offset.
-/
import proofs.«138272_j50989851738367_2_alg».proof.Proof.Gen.KernelIdeal.Launch
import proofs.«138272_j50989851738367_2_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

open Idealize.ShloMosaic Idealize.ShloMosaic.ValueIdx Idealize.ShloMosaic.TcCoe Idealize.SL.Sem Cert.Attn

namespace Cert.KernelIdeal.Heads

open Cert.KernelIdeal Cert.KernelIdeal.Gen

/-! ## The four steps, each read at an index -/

section Steps
variable {α : Type}

/-- Merging batch and head: position ((b·16 + h)·2048 + s)·64 + d of [2, 16, 2048, 64] is position (g·2048 + s)·64 + d
    of [32, 2048, 64] when b = g div 16 and h = g mod 16. -/
theorem merge_apply (Y : S2x16x2048x64.Idx → α) (h : S2x16x2048x64.ShapeCasts S32x2048x64)
    (g : Fin 32) (s : Fin 2048) (d : Fin 64) :
    shapeCast S32x2048x64 Y h (ix3 g s d) = Y (ix4 (gb g) (gh g) s d) :=
  shapeCast_apply Y h (ix3 g s d) (ix4 (gb g) (gh g) s d) (by
    rewrite [Shape.rowMajor_val_four, Shape.rowMajor_val_three]
    show ((g.val / 16 * 16 + g.val % 16) * 2048 + s.val) * 64 + d.val = (g.val * 2048 + s.val) * 64 + d.val
    omega)

/-- Exchanging the position axis and the head axis. -/
theorem swap_apply (Y : S2x2048x16x64.Idx → α) (h : S2x2048x16x64.Transposes [0, 2, 1, 3] S2x16x2048x64)
    (b : Fin 2) (hh : Fin 16) (s : Fin 2048) (d : Fin 64) :
    transpose S2x16x2048x64 [0, 2, 1, 3] Y h (ix4 b hh s d) = Y (ix4 b s hh d) :=
  transpose_apply [0, 2, 1, 3] Y h (ix4 b hh s d) (ix4 b s hh d) (fun a => match a with
    | ⟨0, _⟩ => rfl
    | ⟨1, _⟩ => rfl
    | ⟨2, _⟩ => rfl
    | ⟨3, _⟩ => rfl)

/-- Splitting rows into (batch, position) and features into (head, coordinate): position
    ((b·2048 + s)·16 + h)·64 + d of [2, 2048, 16, 64] is position (b·2048 + s)·1024 + (h·64 + d) of [4096, 1024]. -/
theorem split_apply (Y : S4096x1024.Idx → α) (h : S4096x1024.ShapeCasts S2x2048x16x64)
    (b : Fin 2) (s : Fin 2048) (hh : Fin 16) (d : Fin 64) :
    shapeCast S2x2048x16x64 Y h (ix4 b s hh d) = Y (ix2 (rowOf b s) (hd hh d)) :=
  shapeCast_apply Y h (ix4 b s hh d) (ix2 (rowOf b s) (hd hh d)) (by
    rewrite [Shape.rowMajor_val_two, Shape.rowMajor_val_four]
    show (b.val * 2048 + s.val) * 1024 + (hh.val * 64 + d.val) = ((b.val * 2048 + s.val) * 16 + hh.val) * 64 + d.val
    omega)

/-- The block of 1024 columns from column `o` on: column e of the block is column o + e of the array. -/
theorem cut_apply (o : Nat) (Y : S4096x3072.Idx → α) (h : S4096x3072.Slices ![0, o] S4096x1024)
    (r : Fin 4096) (e : Fin 1024) (k : Fin 3072) (hk : k.val = o + e.val) :
    extractStridedSlice S4096x1024 ![0, o] Y h (ix2 r e) = Y (ix2 r k) :=
  slice2_axis1_apply o Y h r e k hk

end Steps

/-! ## The re-laying as one function of the projected array -/

/-- The block of columns from `o` on, split into heads, with batch and head merged in front. -/
def relay {α : Type} (o : Nat) (hs : S4096x3072.Slices ![0, o] S4096x1024) (Y : S4096x3072.Idx → α) : S32x2048x64.Idx → α :=
  shapeCast S32x2048x64
    (transpose S2x16x2048x64 [0, 2, 1, 3]
      (shapeCast S2x2048x16x64 (extractStridedSlice S4096x1024 ![0, o] Y hs) Facts₀.shapeCasts_S4096x1024_S2x2048x16x64)
      Facts₀.transposes_S2x2048x16x64_S2x16x2048x64_0_2_1_3)
    Facts₀.shapeCasts_S2x16x2048x64_S32x2048x64

/-- Read at (g, s, d): row (g div 16)·2048 + s, column o + (g mod 16)·64 + d. -/
theorem relay_apply {α : Type} (o : Nat) (hs : S4096x3072.Slices ![0, o] S4096x1024) (Y : S4096x3072.Idx → α)
    (g : Fin 32) (s : Fin 2048) (d : Fin 64) (k : Fin 3072) (hk : k.val = o + (hd (gh g) d).val) :
    relay o hs Y (ix3 g s d) = Y (ix2 (rowOf (gb g) s) k) := by
  unfold relay
  rw [merge_apply, swap_apply, split_apply]
  exact cut_apply o Y hs (rowOf (gb g) s) (hd (gh g) d) k hk

/-! ## The three per-head arrays -/

theorem after_q (W : Valuation τ sig (Elt Ideal)) :
    (StableHlo.after (hostOps1 (F := Ideal)) W (Proc.devRef .tc main_v14) : S32x2048x64.Idx → EReal)
      = relay 0 Facts₀.slices_S4096x3072_S4096x1024_0_0 (W (Proc.devRef .tc main_v8) : S4096x3072.Idx → EReal) := by
  show StableHlo.after hostOps1 _ (Proc.devRef .tc main_v14) = _
  after_results
  rfl

theorem after_k (W : Valuation τ sig (Elt Ideal)) :
    (StableHlo.after (hostOps1 (F := Ideal)) W (Proc.devRef .tc main_v17) : S32x2048x64.Idx → EReal)
      = relay 1024 Facts₀.slices_S4096x3072_S4096x1024_0_1024 (W (Proc.devRef .tc main_v8) : S4096x3072.Idx → EReal) := by
  show StableHlo.after hostOps1 _ (Proc.devRef .tc main_v17) = _
  after_results
  rfl

theorem after_v (W : Valuation τ sig (Elt Ideal)) :
    (StableHlo.after (hostOps1 (F := Ideal)) W (Proc.devRef .tc main_v20) : S32x2048x64.Idx → EReal)
      = relay 2048 Facts₀.slices_S4096x3072_S4096x1024_0_2048 (W (Proc.devRef .tc main_v8) : S4096x3072.Idx → EReal) := by
  show StableHlo.after hostOps1 _ (Proc.devRef .tc main_v20) = _
  after_results
  rfl

/-- The queries' heads: projection 0. -/
theorem heads_q (W : Valuation τ sig (Elt Ideal)) (g : Fin 32) (s : Fin 2048) (d : Fin 64) :
    (StableHlo.after (hostOps1 (F := Ideal)) W (Proc.devRef .tc main_v14) : S32x2048x64.Idx → EReal) (ix3 g s d)
      = (W (Proc.devRef .tc main_v8) : S4096x3072.Idx → EReal) (ix2 (rowOf (gb g) s) (col 0 (hd (gh g) d))) := by
  rw [after_q]
  exact relay_apply 0 _ _ g s d (col 0 (hd (gh g) d))
    (by show 0 * 1024 + (hd (gh g) d).val = 0 + (hd (gh g) d).val; omega)

/-- The keys' heads: projection 1. -/
theorem heads_k (W : Valuation τ sig (Elt Ideal)) (g : Fin 32) (s : Fin 2048) (d : Fin 64) :
    (StableHlo.after (hostOps1 (F := Ideal)) W (Proc.devRef .tc main_v17) : S32x2048x64.Idx → EReal) (ix3 g s d)
      = (W (Proc.devRef .tc main_v8) : S4096x3072.Idx → EReal) (ix2 (rowOf (gb g) s) (col 1 (hd (gh g) d))) := by
  rw [after_k]
  exact relay_apply 1024 _ _ g s d (col 1 (hd (gh g) d))
    (by show 1 * 1024 + (hd (gh g) d).val = 1024 + (hd (gh g) d).val; omega)

/-- The values' heads: projection 2. -/
theorem heads_v (W : Valuation τ sig (Elt Ideal)) (g : Fin 32) (s : Fin 2048) (d : Fin 64) :
    (StableHlo.after (hostOps1 (F := Ideal)) W (Proc.devRef .tc main_v20) : S32x2048x64.Idx → EReal) (ix3 g s d)
      = (W (Proc.devRef .tc main_v8) : S4096x3072.Idx → EReal) (ix2 (rowOf (gb g) s) (col 2 (hd (gh g) d))) := by
  rw [after_v]
  exact relay_apply 2048 _ _ g s d (col 2 (hd (gh g) d))
    (by show 2 * 1024 + (hd (gh g) d).val = 2048 + (hd (gh g) d).val; omega)

end Cert.KernelIdeal.Heads

end
-- ==== Proof.LibNaryThree.lean ====
/-
  A host operation of three operands named by a literal family of references, read at its own result.
-/
import Idealize.ShloMosaic.Lib.StableHlo.Run

noncomputable section

namespace Idealize.ShloMosaic.StableHlo

variable {τ : Topo} {sig : RefSig} {Val : EltTy → Type} {x a b y : Ref sig .tc}

/-- The result of an operation of THREE operands given as a literal family `![x, a, b]` (a concatenation of three
    arrays), with each operand's contents read AT ITS OWN REFERENCE: `Fin.cons (F x) (Fin.cons (F a) (Fin.cons (F b) _))`
    in place of `fun k => F (![x, a, b] k)`. Under the binder the reference `![…] k` is no literal, so nothing more can
    be said of the operands' contents; after this rewriting each operand's contents is a term of its own, which further
    rewriting of a line of operations reaches. (The library states the same for four operands.) -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.ProjEntry.lean ====
/-
  The three arrays the projection region reads, as the host operations before it leave them, read at an index.

  The input x of shape [2, 2048, 1024] is flattened to [4096, 1024]: row r is position r mod 2048 of batch r div 2048.
  Each projection's [1024, 1024] weight matrix is transposed and the three are laid side by side along the columns, to
  [1024, 3072]: in row k, column j·1024 + e holds entry (e, k) of projection j's weights. The three biases of 1024
  entries are laid end to end: entry j·1024 + e is projection j's bias at e. The two changes of format to half
  precision are the identity on the extended reals.
-/
import proofs.«138272_j50989851738367_2_alg».proof.Proof.RunI
import proofs.«138272_j50989851738367_2_alg».proof.Proof.Spec
import proofs.«138272_j50989851738367_2_alg».proof.Proof.LibNaryThree
import Idealize.ShloMosaic.PureOps.Ideal
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.ProjEntry

open Cert.KernelIdeal Cert.KernelIdeal.Gen Cert.KernelIdeal.Body Cert.KernelIdeal.Run Cert.Attn
open Idealize.ShloMosaic Idealize.ShloMosaic.ValueIdx Idealize.ShloMosaic.TcCoe Idealize.SL.Sem
open Idealize.ShloMosaic.StableHlo (nary3_result)

variable (m : (ℓ : Loc nD τ sig) → Buf (Elt Ideal) ℓ) (ρ : Dev nD → PrngReg) (c : Dev nD)

/-! ## The arrays as terms of the arguments -/

/-- The program's arguments on core c: the input, and each projection's weights and bias. -/
abbrev aX : S2x2048x1024.Idx → EReal := m ((c.tc : Thread nD τ).loc main_arg0)
abbrev aWq : S1024x1024.Idx → EReal := m ((c.tc : Thread nD τ).loc main_arg1)
abbrev aBq : S1024.Idx → EReal := m ((c.tc : Thread nD τ).loc main_arg2)
abbrev aWk : S1024x1024.Idx → EReal := m ((c.tc : Thread nD τ).loc main_arg3)
abbrev aBk : S1024.Idx → EReal := m ((c.tc : Thread nD τ).loc main_arg4)
abbrev aWv : S1024x1024.Idx → EReal := m ((c.tc : Thread nD τ).loc main_arg5)
abbrev aBv : S1024.Idx → EReal := m ((c.tc : Thread nD τ).loc main_arg6)

/-- The three arrays the region reads, as it finds them: the flattened input, the concatenated weights, the
    concatenated biases. -/
abbrev eX : S4096x1024.Idx → EReal := V1 m ρ c main_v6
abbrev eW : S1024x3072.Idx → EReal := V1 m ρ c main_v7
abbrev eB : S3072.Idx → EReal := V1 m ρ c main_v4

/-- The flattened input: the reshape of the first argument. -/
theorem closed_x :
    eX m ρ c = truncf (F := Ideal) .bf16 (shapeCast S4096x1024 (aX m c) shapeCasts_S2x2048x1024_S4096x1024) bitsLt_bf16_f32 := by
  show StableHlo.after hostOps0 (W0 m ρ c) (Proc.devRef .tc main_v6) = _
  after_results
  rfl

/-- The concatenated weights: the three transposed weight matrices side by side along the columns. -/
theorem closed_w :
    eW m ρ c = truncf (F := Ideal) .bf16 (concatenate S1024x3072 1
          [⟨S1024x1024, transpose S1024x1024 [1, 0] (aWq m c) transposes_S1024x1024_S1024x1024_1_0⟩,
           ⟨S1024x1024, transpose S1024x1024 [1, 0] (aWk m c) transposes_S1024x1024_S1024x1024_1_0⟩,
           ⟨S1024x1024, transpose S1024x1024 [1, 0] (aWv m c) transposes_S1024x1024_S1024x1024_1_0⟩]
          concatenates_S1024x1024_S1024x1024_S1024x1024_S1024x3072_d1) bitsLt_bf16_f32 := by
  show StableHlo.after hostOps0 (W0 m ρ c) (Proc.devRef .tc main_v7) = _
  simp only [StableHlo.after_cons, StableHlo.after_nil]
  repeat (first
    | rw [nary3_result] | rw [StableHlo.unary_result] | rw [StableHlo.reshape_result]
    | (rw [StableHlo.unary_result_ne]; rotate_left; decide)
    | (rw [StableHlo.nary_result_ne]; rotate_left; decide)
    | (rw [StableHlo.reshape_result_ne]; rotate_left; decide))
  rfl

/-- The concatenated biases: the three biases end to end. -/
theorem closed_b :
    eB m ρ c = concatenate S3072 0 [⟨S1024, aBq m c⟩, ⟨S1024, aBk m c⟩, ⟨S1024, aBv m c⟩]
          concatenates_S1024_S1024_S1024_S3072_d0 := by
  show StableHlo.after hostOps0 (W0 m ρ c) (Proc.devRef .tc main_v4) = _
  simp only [StableHlo.after_cons, StableHlo.after_nil]
  repeat (first
    | rw [nary3_result] | rw [StableHlo.unary_result] | rw [StableHlo.reshape_result]
    | (rw [StableHlo.unary_result_ne]; rotate_left; decide)
    | (rw [StableHlo.nary_result_ne]; rotate_left; decide)
    | (rw [StableHlo.reshape_result_ne]; rotate_left; decide))
  rfl

/-! ## A concatenation of three equal pieces read in each piece's span -/

/-- Three [1024, 1024] matrices side by side along the columns, read in the first one's span: column 0·1024 + e is
    the first matrix's column e. -/
theorem cat_cols0 (A0 A1 A2 : S1024x1024.Idx → EReal)
    (h : Shape.Concatenates [S1024x1024, S1024x1024, S1024x1024] S1024x3072 1) (k e : Fin 1024) :
    concatenate S1024x3072 1 [⟨S1024x1024, A0⟩, ⟨S1024x1024, A1⟩, ⟨S1024x1024, A2⟩] h (ix2 k (col 0 e)) = A0 (ix2 k e) := by
  refine concatenate_apply_piece (α := EReal) (t := S1024x3072) (1 : Fin 2)
    [⟨S1024x1024, A0⟩, ⟨S1024x1024, A1⟩, ⟨S1024x1024, A2⟩] h (ix2 k (col 0 e)) 0 (by simp) S1024x1024 A0 rfl rfl 0 rfl (ix2 k e) ?_ ?_
  · intro b hb
    match b with
    | ⟨0, _⟩ => rfl
    | ⟨1, _⟩ => exact absurd rfl hb
  · show 0 + e.val = 0 * 1024 + e.val
    omega
/-- In the second one's span: column 1·1024 + e is the second matrix's column e, 1024 columns lie before it. -/
theorem cat_cols1 (A0 A1 A2 : S1024x1024.Idx → EReal)
    (h : Shape.Concatenates [S1024x1024, S1024x1024, S1024x1024] S1024x3072 1) (k e : Fin 1024) :
    concatenate S1024x3072 1 [⟨S1024x1024, A0⟩, ⟨S1024x1024, A1⟩, ⟨S1024x1024, A2⟩] h (ix2 k (col 1 e)) = A1 (ix2 k e) := by
  refine concatenate_apply_piece (α := EReal) (t := S1024x3072) (1 : Fin 2)
    [⟨S1024x1024, A0⟩, ⟨S1024x1024, A1⟩, ⟨S1024x1024, A2⟩] h (ix2 k (col 1 e)) 1 (by simp) S1024x1024 A1 rfl rfl 1024 rfl (ix2 k e) ?_ ?_
  · intro b hb
    match b with
    | ⟨0, _⟩ => rfl
    | ⟨1, _⟩ => exact absurd rfl hb
  · show 1024 + e.val = 1 * 1024 + e.val
    omega
/-- In the third one's span: column 2·1024 + e is the third matrix's column e, 2048 columns lie before it. -/
theorem cat_cols2 (A0 A1 A2 : S1024x1024.Idx → EReal)
    (h : Shape.Concatenates [S1024x1024, S1024x1024, S1024x1024] S1024x3072 1) (k e : Fin 1024) :
    concatenate S1024x3072 1 [⟨S1024x1024, A0⟩, ⟨S1024x1024, A1⟩, ⟨S1024x1024, A2⟩] h (ix2 k (col 2 e)) = A2 (ix2 k e) := by
  refine concatenate_apply_piece (α := EReal) (t := S1024x3072) (1 : Fin 2)
    [⟨S1024x1024, A0⟩, ⟨S1024x1024, A1⟩, ⟨S1024x1024, A2⟩] h (ix2 k (col 2 e)) 2 (by simp) S1024x1024 A2 rfl rfl 2048 rfl (ix2 k e) ?_ ?_
  · intro b hb
    match b with
    | ⟨0, _⟩ => rfl
    | ⟨1, _⟩ => exact absurd rfl hb
  · show 2048 + e.val = 2 * 1024 + e.val
    omega

/-- Three vectors of 1024 entries laid end to end, read in the first one's span. -/
theorem cat_vec0 (B0 B1 B2 : S1024.Idx → EReal) (h : Shape.Concatenates [S1024, S1024, S1024] S3072 0) (e : Fin 1024) :
    concatenate S3072 0 [⟨S1024, B0⟩, ⟨S1024, B1⟩, ⟨S1024, B2⟩] h (ix1 (col 0 e)) = B0 (ix1 e) := by
  refine concatenate_apply_piece (α := EReal) (t := S3072) (0 : Fin 1)
    [⟨S1024, B0⟩, ⟨S1024, B1⟩, ⟨S1024, B2⟩] h (ix1 (col 0 e)) 0 (by simp) S1024 B0 rfl rfl 0 rfl (ix1 e) ?_ ?_
  · intro b hb
    match b with
    | ⟨0, _⟩ => exact absurd rfl hb
  · show 0 + e.val = 0 * 1024 + e.val
    omega
/-- In the second one's span. -/
theorem cat_vec1 (B0 B1 B2 : S1024.Idx → EReal) (h : Shape.Concatenates [S1024, S1024, S1024] S3072 0) (e : Fin 1024) :
    concatenate S3072 0 [⟨S1024, B0⟩, ⟨S1024, B1⟩, ⟨S1024, B2⟩] h (ix1 (col 1 e)) = B1 (ix1 e) := by
  refine concatenate_apply_piece (α := EReal) (t := S3072) (0 : Fin 1)
    [⟨S1024, B0⟩, ⟨S1024, B1⟩, ⟨S1024, B2⟩] h (ix1 (col 1 e)) 1 (by simp) S1024 B1 rfl rfl 1024 rfl (ix1 e) ?_ ?_
  · intro b hb
    match b with
    | ⟨0, _⟩ => exact absurd rfl hb
  · show 1024 + e.val = 1 * 1024 + e.val
    omega
/-- In the third one's span. -/
theorem cat_vec2 (B0 B1 B2 : S1024.Idx → EReal) (h : Shape.Concatenates [S1024, S1024, S1024] S3072 0) (e : Fin 1024) :
    concatenate S3072 0 [⟨S1024, B0⟩, ⟨S1024, B1⟩, ⟨S1024, B2⟩] h (ix1 (col 2 e)) = B2 (ix1 e) := by
  refine concatenate_apply_piece (α := EReal) (t := S3072) (0 : Fin 1)
    [⟨S1024, B0⟩, ⟨S1024, B1⟩, ⟨S1024, B2⟩] h (ix1 (col 2 e)) 2 (by simp) S1024 B2 rfl rfl 2048 rfl (ix1 e) ?_ ?_
  · intro b hb
    match b with
    | ⟨0, _⟩ => exact absurd rfl hb
  · show 2048 + e.val = 2 * 1024 + e.val
    omega

/-! ## The entry arrays read at an index -/

/-- Row r of the flattened input is position r mod 2048 of batch r div 2048: the two indices have the same
    row-major position, ((r div 2048)·2048 + r mod 2048)·1024 + k = r·1024 + k. -/
theorem entry_x (r : Fin 4096) (k : Fin 1024) :
    (V1 (F := Ideal) m ρ c main_v6 : S4096x1024.Idx → EReal) (ix2 r k)
      = (m ((c.tc : Thread nD τ).loc main_arg0) : S2x2048x1024.Idx → EReal) (ix3 (rowB r) (rowS r) k) := by
  show eX m ρ c (ix2 r k) = aX m c (ix3 (rowB r) (rowS r) k)
  rw [closed_x]
  refine (truncf_apply (ψ := .bf16) _ bitsLt_bf16_f32 _).trans ?_
  refine shapeCast_apply _ _ _ _ ?_
  rw [Shape.rowMajor_val_three, Shape.rowMajor_val_two]
  show (r.val / 2048 * 2048 + r.val % 2048) * 1024 + k.val = r.val * 1024 + k.val
  have := Nat.div_add_mod r.val 2048
  omega

/-- In row k of the concatenated weights, column e of the queries' span is entry (e, k) of the queries' weights. -/
theorem entry_w_q (k e : Fin 1024) :
    (V1 (F := Ideal) m ρ c main_v7 : S1024x3072.Idx → EReal) (ix2 k (col 0 e))
      = (m ((c.tc : Thread nD τ).loc main_arg1) : S1024x1024.Idx → EReal) (ix2 e k) := by
  show eW m ρ c (ix2 k (col 0 e)) = aWq m c (ix2 e k)
  rw [closed_w]
  refine (truncf_apply (ψ := .bf16) _ bitsLt_bf16_f32 _).trans ?_
  refine (cat_cols0 _ _ _ _ k e).trans ?_
  exact transpose_ix2_apply _ _ k e
/-- Column e of the keys' span is entry (e, k) of the keys' weights. -/
theorem entry_w_k (k e : Fin 1024) :
    (V1 (F := Ideal) m ρ c main_v7 : S1024x3072.Idx → EReal) (ix2 k (col 1 e))
      = (m ((c.tc : Thread nD τ).loc main_arg3) : S1024x1024.Idx → EReal) (ix2 e k) := by
  show eW m ρ c (ix2 k (col 1 e)) = aWk m c (ix2 e k)
  rw [closed_w]
  refine (truncf_apply (ψ := .bf16) _ bitsLt_bf16_f32 _).trans ?_
  refine (cat_cols1 _ _ _ _ k e).trans ?_
  exact transpose_ix2_apply _ _ k e
/-- Column e of the values' span is entry (e, k) of the values' weights. -/
theorem entry_w_v (k e : Fin 1024) :
    (V1 (F := Ideal) m ρ c main_v7 : S1024x3072.Idx → EReal) (ix2 k (col 2 e))
      = (m ((c.tc : Thread nD τ).loc main_arg5) : S1024x1024.Idx → EReal) (ix2 e k) := by
  show eW m ρ c (ix2 k (col 2 e)) = aWv m c (ix2 e k)
  rw [closed_w]
  refine (truncf_apply (ψ := .bf16) _ bitsLt_bf16_f32 _).trans ?_
  refine (cat_cols2 _ _ _ _ k e).trans ?_
  exact transpose_ix2_apply _ _ k e

/-- Entry e of the queries' span of the concatenated biases is the queries' bias at e. -/
theorem entry_b_q (e : Fin 1024) :
    (V1 (F := Ideal) m ρ c main_v4 : S3072.Idx → EReal) (ix1 (col 0 e))
      = (m ((c.tc : Thread nD τ).loc main_arg2) : S1024.Idx → EReal) (ix1 e) := by
  show eB m ρ c (ix1 (col 0 e)) = aBq m c (ix1 e)
  rw [closed_b]; exact cat_vec0 _ _ _ _ e
/-- Entry e of the keys' span is the keys' bias at e. -/
theorem entry_b_k (e : Fin 1024) :
    (V1 (F := Ideal) m ρ c main_v4 : S3072.Idx → EReal) (ix1 (col 1 e))
      = (m ((c.tc : Thread nD τ).loc main_arg4) : S1024.Idx → EReal) (ix1 e) := by
  show eB m ρ c (ix1 (col 1 e)) = aBk m c (ix1 e)
  rw [closed_b]; exact cat_vec1 _ _ _ _ e
/-- Entry e of the values' span is the values' bias at e. -/
theorem entry_b_v (e : Fin 1024) :
    (V1 (F := Ideal) m ρ c main_v4 : S3072.Idx → EReal) (ix1 (col 2 e))
      = (m ((c.tc : Thread nD τ).loc main_arg6) : S1024.Idx → EReal) (ix1 e) := by
  show eB m ρ c (ix1 (col 2 e)) = aBv m c (ix1 e)
  rw [closed_b]; exact cat_vec2 _ _ _ _ e

end Cert.KernelIdeal.ProjEntry

end
-- ==== Proof.ProjValue.lean ====
/-
  What the projection region leaves in its result array, as a function of the program's arguments.

  The region's grid has 8 points: point t reads rows 512·t … 512·t + 511 of the flattened input x (4096 rows of 1024
  features), the whole [1024, 3072] matrix w of the three transposed weight matrices side by side, and the whole row b
  of the three biases end to end, and writes back rows 512·t … of x·w plus b on every row. So every block written back
  is a block of ONE function of the whole index, and the 8 blocks tile the [4096, 3072] result. Column j·1024 + e of
  that result is projection j at feature e: the sum over k of x[r, k] · W_j[e, k], plus bias_j[e].
-/
import proofs.«138272_j50989851738367_2_alg».proof.Proof.RunI
import proofs.«138272_j50989851738367_2_alg».proof.Proof.ProjEntry
import proofs.«138272_j50989851738367_2_alg».proof.Proof.Spec
import proofs.«138272_j50989851738367_2_alg».proof.Proof.LibUnitZero
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.ProjValue

open Cert.KernelIdeal Cert.KernelIdeal.Gen Cert.KernelIdeal.Body Cert.KernelIdeal.Run Cert.Attn
open Idealize.ShloMosaic Idealize.ShloMosaic.TcCoe Idealize.ShloMosaic.ValueIdx
open Idealize.SL Idealize.SL.Sem
open Idealize.ShloMosaic.Pipeline (Dat)

/-! ## The body's arithmetic at an index -/

theorem xw_lhs_0 (i : S512x3072.Idx) (q : dot_S512x1024_S1024x3072_S512x3072_1_0_0_1_n_n.contr.Idx) : (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem xw_rhs_1 (i : S512x3072.Idx) (q : dot_S512x1024_S1024x3072_S512x3072_1_0_0_1_n_n.contr.Idx) : (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- Entry (p, n) of a·b is the sum over the 1024 features of a[p, k] · b[k, n]. -/
theorem matmul_xw (a : FVec Ideal S512x1024 .bf16) (b : FVec Ideal S1024x3072 .bf16) (p : Fin 512) (n : Fin 3072) :
    matmul dot_S512x1024_S1024x3072_S512x3072_1_0_0_1_n_n none a b (constant (F := Ideal) S512x3072 .f32 0x00000000#32) (ix2 p n)
      = ∑ k : Fin 1024, a (ix2 p k) * b (ix2 k n) := by
  refine (Ideal.matmul_constant_zero_apply dot_S512x1024_S1024x3072_S512x3072_1_0_0_1_n_n none a b (ix2 p n)).trans ?_
  rw [← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 p n) ((contrEquiv1 dot_S512x1024_S1024x3072_S512x3072_1_0_0_1_n_n 1024 rfl rfl).symm k) = ix2 p k :=
    funext fun ax => Fin.ext (by
      match ax with
      | ⟨0, _⟩ => exact xw_lhs_0 _ _
      | ⟨1, _⟩ => exact (dot_S512x1024_S1024x3072_S512x3072_1_0_0_1_n_n.lhsIdx_val_of_single rfl _ _).trans hk)
  have er : dot_S512x1024_S1024x3072_S512x3072_1_0_0_1_n_n.rhsIdx (ix2 p n) ((contrEquiv1 dot_S512x1024_S1024x3072_S512x3072_1_0_0_1_n_n 1024 rfl rfl).symm k) = ix2 k n :=
    funext fun ax => Fin.ext (by
      match ax with
      | ⟨0, _⟩ => exact (dot_S512x1024_S1024x3072_S512x3072_1_0_0_1_n_n.rhsIdx_val_of_single rfl _ _).trans hk
      | ⟨1, _⟩ => exact xw_rhs_1 _ _)
  rw [el, er]

/-- The stored block at (p, n): the product's entry plus the bias at n. -/
theorem pay_apply (x0 : FVec Ideal S512x1024 .bf16) (x1 : FVec Ideal S1024x3072 .bf16) (x2 : FVec Ideal S3072 .f32) (p : Fin 512) (n : Fin 3072) :
    k0_pay1 (F := Ideal) x0 x1 x2 (ix2 p n) = (∑ k : Fin 1024, x0 (ix2 p k) * x1 (ix2 k n)) + x2 (ix1 n) := by
  unfold k0_pay1
  refine (addf_apply _ _ _).trans (congrArg₂ (· + ·) ?_ ?_)
  · refine (matmul_xw _ _ p n).trans (Finset.sum_congr rfl fun k _ => ?_)
    rw [shapeCast_self, shapeCast_self]
  · refine (broadcastTo_1b_ab_apply _ _ p n).trans ?_
    refine (shapeCast_a_1a_apply _ _ 0 n).trans ?_
    rw [shapeCast_self]

variable (m : (ℓ : Loc nD τ sig) → Buf (Elt Ideal) ℓ) (ρ : Dev nD → PrngReg) (c : Dev nD)

/-! ## The result array as one function of the entry arrays -/

/-- The three arrays the region is entered with: the flattened input, the weights side by side, the biases end to end. -/
def X6 (r : Fin 4096) (k : Fin 1024) : EReal := V1 m ρ c main_v6 (ix2 r k)
def W7 (k : Fin 1024) (n : Fin 3072) : EReal := V1 m ρ c main_v7 (ix2 k n)
def B4 (n : Fin 3072) : EReal := V1 m ρ c main_v4 (ix1 n)

def G8 : S4096x3072.Idx → EReal := fun i =>
  (∑ k : Fin 1024, X6 m ρ c ⟨(i 0).val, (i 0).isLt⟩ k * W7 m ρ c k ⟨(i 1).val, (i 1).isLt⟩) + B4 m ρ c ⟨(i 1).val, (i 1).isLt⟩

theorem lt8 (t : Fin cfg0.N) : t.val < 8 := lt_of_lt_of_eq t.isLt N_0

/-- The printed index maps, decided over the grid. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row p of point t's input block is row 512·t + p of the flattened input. -/
def pr (t : Fin cfg0.N) (p : Fin 512) : Fin 4096 := ⟨t.val * 512 + p.val, by have := lt8 t; have := p.isLt; omega⟩

theorem read_x (t : Fin cfg0.N) (p : Fin 512) (k : Fin 1024) :
    iblk0 (V1 m ρ) c 0 t (ix2 p k) = X6 m ρ c (pr t p) k := by
  show V1 m ρ c main_v6 (((cfg0.win 0).blk t).view.emb (ix2 p k)) = V1 m ρ c main_v6 (ix2 (pr t p) k)
  refine congrArg (V1 m ρ c main_v6) (funext fun a => Fin.ext ?_)
  obtain ⟨e0, e1, -⟩ := idx_facts0 t
  match a with
  | ⟨0, _⟩ => show win0_0.index t (0 : Fin 2) * 512 + 1 * p.val = t.val * 512 + p.val; omega
  | ⟨1, _⟩ => show win0_0.index t (1 : Fin 2) * 1024 + 1 * k.val = k.val; omega

theorem read_w (t : Fin cfg0.N) (k : Fin 1024) (n : Fin 3072) :
    iblk0 (V1 m ρ) c 1 t (ix2 k n) = W7 m ρ c k n := by
  show V1 m ρ c main_v7 (((cfg0.win 1).blk t).view.emb (ix2 k n)) = V1 m ρ c main_v7 (ix2 k n)
  refine congrArg (V1 m ρ c main_v7) (funext fun a => Fin.ext ?_)
  obtain ⟨-, -, e0, e1, -⟩ := idx_facts0 t
  match a with
  | ⟨0, _⟩ => show win0_1.index t (0 : Fin 2) * 1024 + 1 * k.val = k.val; omega
  | ⟨1, _⟩ => show win0_1.index t (1 : Fin 2) * 3072 + 1 * n.val = n.val; omega

theorem read_b (t : Fin cfg0.N) (n : Fin 3072) :
    iblk0 (V1 m ρ) c 2 t (ix1 n) = B4 m ρ c n := by
  show V1 m ρ c main_v4 (((cfg0.win 2).blk t).view.emb (ix1 n)) = V1 m ρ c main_v4 (ix1 n)
  refine congrArg (V1 m ρ c main_v4) (funext fun a => Fin.ext ?_)
  obtain ⟨-, -, -, -, e0, -⟩ := idx_facts0 t
  match a with
  | ⟨0, _⟩ => show win0_2.index t (0 : Fin 1) * 3072 + 1 * n.val = n.val; omega

/-- The block point t stores, entry by entry, is the result function at the block's place. -/
theorem block8 (t : Fin cfg0.N) (y : S512x3072.Idx) :
    k0_pay1 (iblk0 (V1 m ρ) c 0 t) (iblk0 (V1 m ρ) c 1 t) (iblk0 (V1 m ρ) c 2 t) y = G8 m ρ c (((cfg0.win 3).blk t).view.emb y) := by
  obtain ⟨p, n, rfl⟩ : ∃ (p : Fin 512) (n : Fin 3072), y = ix2 p n := ⟨y 0, y 1, eq_ix2 y⟩
  refine (pay_apply _ _ _ p n).trans ?_
  obtain ⟨-, -, -, -, -, e0, e1⟩ := idx_facts0 t
  have hr : (⟨((((cfg0.win 3).blk t).view.emb (ix2 p n)) 0).val, ((((cfg0.win 3).blk t).view.emb (ix2 p n)) 0).isLt⟩ : Fin 4096) = pr t p :=
    Fin.ext (by show win0_3.index t (0 : Fin 2) * 512 + 1 * p.val = t.val * 512 + p.val; omega)
  have hn : (⟨((((cfg0.win 3).blk t).view.emb (ix2 p n)) 1).val, ((((cfg0.win 3).blk t).view.emb (ix2 p n)) 1).isLt⟩ : Fin 3072) = n :=
    Fin.ext (by show win0_3.index t (1 : Fin 2) * 3072 + 1 * n.val = n.val; omega)
  unfold G8
  rw [hr, hn]
  refine congrArg₂ (· + ·) (Finset.sum_congr rfl fun k _ => ?_) (read_b m ρ c t n)
  exact congrArg₂ (· * ·) (read_x m ρ c t p k) (read_w m ρ c t k n)

theorem flushed8_eq (t : Fin cfg0.N) :
    (dat0 (V1 m ρ) c).flushed 3 t = ((cfg0.win 3).blk t).view.read (Elt Ideal) (G8 m ρ c) := by
  show (cfg0.win 3).cut (grid0.coords t) ((dat0 (V1 m ρ) c).after 3 t) = _
  rw [after0_3]
  unfold out0_3
  rw [View.canon_unit_zero zeroOff2]
  simp only [View.ld_unit_zero (S := S512x1024) zeroOff2, View.ld_unit_zero (S := S1024x3072) zeroOff2,
    View.ld_unit_zero (S := S3072) (show (![0] : Fin 1 → ℕ) = fun _ => 0 from funext fun a => by fin_cases a; rfl)]
  funext j
  exact block8 m ρ c t j

theorem mem_blk8 (t : Fin cfg0.N) (i : S4096x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v8).slice (win0_3.rect t)).set ↔ _
  rw [View.set_slice_whole, Rect.mem_set_unit]
  exact Iff.rfl

/-- Row r lies in the block of point r div 512. -/
theorem cover8 (i : S4096x3072.Idx) : ∃ t : Fin cfg0.N, (cfg0.win 3).flush t = true ∧ i ∈ ((cfg0.win 3).blk t).view.set := by
  have h0 : (i 0).val < 4096 := (i 0).isLt
  have h1 : (i 1).val < 3072 := (i 1).isLt
  let t : Fin cfg0.N := ⟨(i 0).val / 512, by rw [show cfg0.N = 8 from N_0]; omega⟩
  refine ⟨t, flush0_3 t, ?_⟩
  rw [mem_blk8]
  obtain ⟨-, -, -, -, -, e0, e1⟩ := idx_facts0 t
  have ht : t.val = (i 0).val / 512 := rfl
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 3072 ≤ (i 1).val ∧ (i 1).val < win0_3.index t (1 : Fin 2) * 3072 + 3072; omega

theorem final8 : (dat0 (V1 m ρ) c).arrAt 3 cfg0.N = G8 m ρ c :=
  (dat0 (V1 m ρ) c).arrAt_eq_of_cover 3 (G8 m ρ c) (fun t _ => flushed8_eq m ρ c t) (cover8)

/-- At the region's exit, entry (r, n) of the result is row r of x against column n of w, plus b at n. -/
theorem W2_v8 (r : Fin 4096) (n : Fin 3072) :
    (W2 m ρ c (Proc.devRef .tc main_v8) : S4096x3072.Idx → EReal) (ix2 r n)
      = (∑ k : Fin 1024, X6 m ρ c r k * W7 m ρ c k n) + B4 m ρ c n := by
  rw [show W2 m ρ c (Proc.devRef .tc main_v8) = (dat0 (V1 m ρ) c).arrAt 3 cfg0.N from W2_arr m ρ c 3, final8]
  rfl

/-! ## The three projections -/

theorem v8_q (r : Fin 4096) (e : Fin 1024) : (W2 (F := Ideal) m ρ c (Proc.devRef .tc main_v8) : S4096x3072.Idx → EReal) (ix2 r (col 0 e))
    = proj (m ((c.tc : Thread nD τ).loc main_arg0)) (m ((c.tc : Thread nD τ).loc main_arg1)) (m ((c.tc : Thread nD τ).loc main_arg2)) (rowB r) (rowS r) e := by
  refine (W2_v8 m ρ c r (col 0 e)).trans ?_
  unfold proj
  refine congrArg₂ (· + ·) (Finset.sum_congr rfl fun k _ => ?_) (Cert.KernelIdeal.ProjEntry.entry_b_q m ρ c e)
  exact congrArg₂ (· * ·) (Cert.KernelIdeal.ProjEntry.entry_x m ρ c r k) (Cert.KernelIdeal.ProjEntry.entry_w_q m ρ c k e)

theorem v8_k (r : Fin 4096) (e : Fin 1024) : (W2 (F := Ideal) m ρ c (Proc.devRef .tc main_v8) : S4096x3072.Idx → EReal) (ix2 r (col 1 e))
    = proj (m ((c.tc : Thread nD τ).loc main_arg0)) (m ((c.tc : Thread nD τ).loc main_arg3)) (m ((c.tc : Thread nD τ).loc main_arg4)) (rowB r) (rowS r) e := by
  refine (W2_v8 m ρ c r (col 1 e)).trans ?_
  unfold proj
  refine congrArg₂ (· + ·) (Finset.sum_congr rfl fun k _ => ?_) (Cert.KernelIdeal.ProjEntry.entry_b_k m ρ c e)
  exact congrArg₂ (· * ·) (Cert.KernelIdeal.ProjEntry.entry_x m ρ c r k) (Cert.KernelIdeal.ProjEntry.entry_w_k m ρ c k e)

theorem v8_v (r : Fin 4096) (e : Fin 1024) : (W2 (F := Ideal) m ρ c (Proc.devRef .tc main_v8) : S4096x3072.Idx → EReal) (ix2 r (col 2 e))
    = proj (m ((c.tc : Thread nD τ).loc main_arg0)) (m ((c.tc : Thread nD τ).loc main_arg5)) (m ((c.tc : Thread nD τ).loc main_arg6)) (rowB r) (rowS r) e := by
  refine (W2_v8 m ρ c r (col 2 e)).trans ?_
  unfold proj
  refine congrArg₂ (· + ·) (Finset.sum_congr rfl fun k _ => ?_) (Cert.KernelIdeal.ProjEntry.entry_b_v m ρ c e)
  exact congrArg₂ (· * ·) (Cert.KernelIdeal.ProjEntry.entry_x m ρ c r k) (Cert.KernelIdeal.ProjEntry.entry_w_v m ρ c k e)

end Cert.KernelIdeal.ProjValue

end
-- ==== Proof.RefSide.lean ====
/-
  The reference program's two results are the specification's functions.

  Read one operation at a time, at an index built from its coordinates: each of the three projections is a contraction
  over the 1024 input features plus a bias; the reshape to [2, 2048, 16, 64] and the swap of the two middle axes put
  feature h·64 + d of position s at (b, h, s, d); the scores contract the 64 coordinates of a head; dividing by the square
  root of 64 is multiplying by 1/8 on every extended real; the row maximum is a fold of max from −∞ over the key
  positions, and taking its maximum with −∞ once more changes nothing; then exp of the difference, the row's sum (from
  0), the quotient, and the contraction of the weights with the values over the key positions.
-/
import proofs.«138272_j50989851738367_2_alg».proof.Proof.Gen.ReferenceIdeal.Read
import proofs.«138272_j50989851738367_2_alg».proof.Proof.Spec
import Idealize.ShloMosaic.Lib.ValueIdx
import Idealize.ShloMosaic.Lib.Pipeline.Value
import Idealize.ShloMosaic.PureOps.Ideal.Laws

noncomputable section
open Idealize.ShloMosaic Idealize.ShloMosaic.ValueIdx Idealize.ShloMosaic.TcCoe Idealize.SL.Sem Cert.Attn

namespace Cert.ReferenceIdeal.RefValue
open Cert.ReferenceIdeal Cert.ReferenceIdeal.Gen Cert.ReferenceIdeal.Read

/-! ## The three projections, split into heads

The reference reshapes a projection's [2, 2048, 1024] result to [2, 2048, 16, 64] and swaps the two middle axes: entry
(b, h, s, d) of the heads array is entry (b, s, h·64 + d) of the projection. -/

/-- The reshape after the transpose reads (b, h, s, d) at batch b, position s, feature h·64 + d. -/
theorem idx_heads (b : Fin 2) (h : Fin 16) (s : Fin 2048) (d : Fin 64) :
    idx_main_v4 (idx_main_v5 (ix4 b h s d)) = ix3 b s (hd h d) := by
  have hb := b.isLt; have hh := h.isLt; have hs := s.isLt; have hd' := d.isLt
  funext a; apply Fin.ext
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = h.val * 64 + d.val; omega

/-- Row (b, s, ·) of the input against row e of the weights: the contraction's two operand indices. -/
theorem lidx_proj (b : Fin 2) (s : Fin 2048) (e k : Fin 1024) : lidx_main_v0 (ix3 b s e) k = ix3 b s k := by
  funext a; apply Fin.ext; match a with | ⟨0, _⟩ => rfl | ⟨1, _⟩ => rfl | ⟨2, _⟩ => rfl
theorem ridx_proj (b : Fin 2) (s : Fin 2048) (e k : Fin 1024) : ridx_main_v0 (ix3 b s e) k = ix2 e k := by
  funext a; apply Fin.ext; match a with | ⟨0, _⟩ => rfl | ⟨1, _⟩ => rfl
/-- The bias, broadcast along batch and position, is read at the feature. -/
theorem idx_bias (b : Fin 2) (s : Fin 2048) (e : Fin 1024) : idx_main_v1 (idx_main_v2 (ix3 b s e)) = ix1 e := by
  funext a; apply Fin.ext; match a with | ⟨0, _⟩ => rfl

/-- The queries' heads array at (b, h, s, d) is the first projection at (b, s, h·64 + d). -/
theorem heads_q (x0 : FVec Ideal S2x2048x1024 .f32) (x1 : FVec Ideal S1024x1024 .f32) (x2 : FVec Ideal S1024 .f32)
    (b : Fin 2) (h : Fin 16) (s : Fin 2048) (d : Fin 64) :
    val_main_v5 (F := Ideal) x0 x1 x2 (ix4 b h s d) = proj x0 x1 x2 b s (hd h d) := by
  rw [val_main_v5_apply, val_main_v4_apply, idx_heads, val_main_v3_apply, val_main_v0_apply, val_main_v2_apply,
    val_main_v1_apply, idx_bias]
  simp only [lidx_proj, ridx_proj, Ideal.addf_def]
  rfl

/-- The same index facts for the keys' and the values' projections (their operations are the queries' over again). -/
theorem idx_heads_k (b : Fin 2) (h : Fin 16) (s : Fin 2048) (d : Fin 64) :
    idx_main_v10 (idx_main_v11 (ix4 b h s d)) = ix3 b s (hd h d) := idx_heads b h s d
theorem lidx_proj_k (b : Fin 2) (s : Fin 2048) (e k : Fin 1024) : lidx_main_v6 (ix3 b s e) k = ix3 b s k := lidx_proj b s e k
theorem ridx_proj_k (b : Fin 2) (s : Fin 2048) (e k : Fin 1024) : ridx_main_v6 (ix3 b s e) k = ix2 e k := ridx_proj b s e k
theorem idx_bias_k (b : Fin 2) (s : Fin 2048) (e : Fin 1024) : idx_main_v7 (idx_main_v8 (ix3 b s e)) = ix1 e := idx_bias b s e
theorem idx_heads_v (b : Fin 2) (h : Fin 16) (s : Fin 2048) (d : Fin 64) :
    idx_main_v16 (idx_main_v17 (ix4 b h s d)) = ix3 b s (hd h d) := idx_heads b h s d
theorem lidx_proj_v (b : Fin 2) (s : Fin 2048) (e k : Fin 1024) : lidx_main_v12 (ix3 b s e) k = ix3 b s k := lidx_proj b s e k
theorem ridx_proj_v (b : Fin 2) (s : Fin 2048) (e k : Fin 1024) : ridx_main_v12 (ix3 b s e) k = ix2 e k := ridx_proj b s e k
theorem idx_bias_v (b : Fin 2) (s : Fin 2048) (e : Fin 1024) : idx_main_v13 (idx_main_v14 (ix3 b s e)) = ix1 e := idx_bias b s e

/-- The keys' heads array at (b, h, s, d) is the second projection at (b, s, h·64 + d). -/
theorem heads_k (x0 : FVec Ideal S2x2048x1024 .f32) (x3 : FVec Ideal S1024x1024 .f32) (x4 : FVec Ideal S1024 .f32)
    (b : Fin 2) (h : Fin 16) (s : Fin 2048) (d : Fin 64) :
    val_main_v11 (F := Ideal) x0 x3 x4 (ix4 b h s d) = proj x0 x3 x4 b s (hd h d) := by
  rw [val_main_v11_apply, val_main_v10_apply, idx_heads_k, val_main_v9_apply, val_main_v6_apply, val_main_v8_apply,
    val_main_v7_apply, idx_bias_k]
  simp only [lidx_proj_k, ridx_proj_k, Ideal.addf_def]
  rfl

/-- The values' heads array at (b, h, s, d) is the third projection at (b, s, h·64 + d). -/
theorem heads_v (x0 : FVec Ideal S2x2048x1024 .f32) (x5 : FVec Ideal S1024x1024 .f32) (x6 : FVec Ideal S1024 .f32)
    (b : Fin 2) (h : Fin 16) (s : Fin 2048) (d : Fin 64) :
    val_main_v17 (F := Ideal) x0 x5 x6 (ix4 b h s d) = proj x0 x5 x6 b s (hd h d) := by
  rw [val_main_v17_apply, val_main_v16_apply, idx_heads_v, val_main_v15_apply, val_main_v12_apply, val_main_v14_apply,
    val_main_v13_apply, idx_bias_v]
  simp only [lidx_proj_v, ridx_proj_v, Ideal.addf_def]
  rfl

/-! ## The scores -/

/-- Query position s against key position t in head (b, h): the contraction over the 64 coordinates reads the queries
    at (b, h, s, d) and the keys at (b, h, t, d). -/
theorem lidx_scores (b : Fin 2) (h : Fin 16) (s t : Fin 2048) (d : Fin 64) :
    lidx_main_v18 (ix4 b h s t) d = ix4 b h s d := by
  funext a; apply Fin.ext; match a with | ⟨0, _⟩ => rfl | ⟨1, _⟩ => rfl | ⟨2, _⟩ => rfl | ⟨3, _⟩ => rfl
theorem ridx_scores (b : Fin 2) (h : Fin 16) (s t : Fin 2048) (d : Fin 64) :
    ridx_main_v18 (ix4 b h s t) d = ix4 b h t d := by
  funext a; apply Fin.ext; match a with | ⟨0, _⟩ => rfl | ⟨1, _⟩ => rfl | ⟨2, _⟩ => rfl | ⟨3, _⟩ => rfl

/-- The unscaled score: Σ_d Q[g, s, d] · K[g, t, d] for head number g = b·16 + h. -/
theorem scores_raw (x0 : FVec Ideal S2x2048x1024 .f32) (x1 : FVec Ideal S1024x1024 .f32) (x2 : FVec Ideal S1024 .f32)
    (x3 : FVec Ideal S1024x1024 .f32) (x4 : FVec Ideal S1024 .f32) (b : Fin 2) (h : Fin 16) (s t : Fin 2048) :
    val_main_v18 (F := Ideal) x0 x1 x2 x3 x4 (ix4 b h s t)
      = ∑ d : Fin 64, projH x0 x1 x2 (bh b h) s d * projH x0 x3 x4 (bh b h) t d := by
  rw [val_main_v18_apply]
  refine Finset.sum_congr rfl fun d _ => ?_
  rw [lidx_scores, ridx_scores, heads_q, heads_k, projH_bh, projH_bh]

/-! ## The scale: dividing by the square root of 64 is multiplying by 1/8 -/

/-- The pattern 0x42800000 is the real 64. -/
theorem ofBits_64 : Ideal.ofBits .f32 0x42800000#32 = ((64 : ℝ) : EReal) := by
  simp [Ideal.ofBits, Ideal.ieee, -EReal.coe_mul]; norm_num
/-- The pattern 0x3E000000 is the real 1/8. -/
theorem c8_eq : c8 = (((1 : ℝ) / 8 : ℝ) : EReal) := by
  simp [Ideal.ofBits, Ideal.ieee, -EReal.coe_mul]; norm_num
/-- The square root of 64 = 8² is 8. -/
theorem sqrt_64 : Ideal.sqrt ((64 : ℝ) : EReal) = ((8 : ℝ) : EReal) := by
  show (if (64 : ℝ) < 0 then (⊥ : EReal) else ((Real.sqrt 64 : ℝ) : EReal)) = _
  rw [if_neg (by norm_num), show (64 : ℝ) = 8 ^ 2 by norm_num, Real.sqrt_sq (by norm_num)]

/-- The scaled score. -/
theorem ref_score (x0 : FVec Ideal S2x2048x1024 .f32) (x1 : FVec Ideal S1024x1024 .f32) (x2 : FVec Ideal S1024 .f32)
    (x3 : FVec Ideal S1024x1024 .f32) (x4 : FVec Ideal S1024 .f32) (b : Fin 2) (h : Fin 16) (s t : Fin 2048) :
    val_main_v21 (F := Ideal) x0 x1 x2 x3 x4 (ix4 b h s t)
      = score (projH x0 x1 x2) (projH x0 x3 x4) (bh b h) s t := by
  rw [val_main_v21_apply, val_main_v20_apply, val_main_v19_apply, val_main_cst_apply, scores_raw]
  simp only [Ideal.hostDivf_def, Ideal.hostUnary_sqrt_def, Ideal.ofBits_def]
  rw [ofBits_64, sqrt_64, Ideal.div_coe (by norm_num : (8 : ℝ) ≠ 0)]
  unfold score
  rw [c8_eq]

/-! ## The row maximum -/

/-- The reduction over the last axis reads, over (b, h, s), the row's entries (b, h, s, t). -/
theorem ref_reduce_max (x0 : FVec Ideal S2x2048x1024 .f32) (x1 : FVec Ideal S1024x1024 .f32) (x2 : FVec Ideal S1024 .f32)
    (x3 : FVec Ideal S1024x1024 .f32) (x4 : FVec Ideal S1024 .f32) (b : Fin 2) (h : Fin 16) (s : Fin 2048) :
    val_main_v22 (F := Ideal) x0 x1 x2 x3 x4 (ix3 b h s)
      = (Finset.univ : Finset (Fin 2048)).fold max ninf
          (fun t => val_main_v21 (F := Ideal) x0 x1 x2 x3 x4 (ix4 b h s t)) := by
  unfold val_main_v22
  generalize val_main_v21 (F := Ideal) x0 x1 x2 x3 x4 = y
  have hred : S2x16x2048x2048.Reduces [3] S2x16x2048 := by decide
  refine (Host.reduce_eq_fold_single (FloatOps.maximumf (F := Ideal) (φ := .f32)) y (val_main_cst_0 (F := Ideal))
    reducesTo_S2x16x2048x2048_S2x16x2048_d3 hred h_S_ (ix3 b h s)).trans ?_
  show (Finset.univ : Finset (Fin 2048)).fold max ninf (y ∘ hred.lift (ix3 b h s)) = _
  refine congrArg (fun f => Finset.fold max ninf f (Finset.univ : Finset (Fin 2048))) (funext fun t => ?_)
  exact congrArg y (funext fun a => Fin.ext (by
    match a with | ⟨0, _⟩ => rfl | ⟨1, _⟩ => rfl | ⟨2, _⟩ => rfl | ⟨3, _⟩ => rfl))

/-- A maximum folded from m₀ is at least m₀, so taking its maximum with m₀ once more changes nothing. -/
theorem max_start_fold {ι : Type} (S : Finset ι) (m₀ : EReal) (f : ι → EReal) :
    max m₀ (S.fold max m₀ f) = S.fold max m₀ f :=
  max_eq_right ((Finset.le_fold_max m₀).2 (Or.inl le_rfl))

/-- The row maximum. -/
theorem ref_rowmax (x0 : FVec Ideal S2x2048x1024 .f32) (x1 : FVec Ideal S1024x1024 .f32) (x2 : FVec Ideal S1024 .f32)
    (x3 : FVec Ideal S1024x1024 .f32) (x4 : FVec Ideal S1024 .f32) (b : Fin 2) (h : Fin 16) (s : Fin 2048) :
    val_main_v24 (F := Ideal) x0 x1 x2 x3 x4 (ix3 b h s)
      = rowmax (projH x0 x1 x2) (projH x0 x3 x4) (bh b h) s := by
  rw [val_main_v24_apply, val_main_v23_apply, val_main_cst_1_apply, ref_reduce_max]
  simp only [Ideal.maximumf_def, Ideal.ofBits_def, ref_score]
  rw [max_start_fold]
  rfl

/-! ## The weights -/

/-- The row maximum, broadcast back along the keys' axis, is read at (b, h, s). -/
theorem idx_row_bcast (b : Fin 2) (h : Fin 16) (s t : Fin 2048) :
    idx_main_v25 (idx_main_v26 (ix4 b h s t)) = ix3 b h s := by
  funext a; apply Fin.ext; match a with | ⟨0, _⟩ => rfl | ⟨1, _⟩ => rfl | ⟨2, _⟩ => rfl
theorem idx_row_bcast' (b : Fin 2) (h : Fin 16) (s t : Fin 2048) :
    idx_main_v30 (idx_main_v31 (ix4 b h s t)) = ix3 b h s := idx_row_bcast b h s t
/-- The sum over the keys' axis reads, over (b, h, s), the row's entries (b, h, s, t). -/
theorem idx_row_sum (b : Fin 2) (h : Fin 16) (s t : Fin 2048) : idx_main_v29 (ix3 b h s) t = ix4 b h s t := by
  funext a; apply Fin.ext; match a with | ⟨0, _⟩ => rfl | ⟨1, _⟩ => rfl | ⟨2, _⟩ => rfl | ⟨3, _⟩ => rfl

/-- The unnormalised weight. -/
theorem ref_pexp (x0 : FVec Ideal S2x2048x1024 .f32) (x1 : FVec Ideal S1024x1024 .f32) (x2 : FVec Ideal S1024 .f32)
    (x3 : FVec Ideal S1024x1024 .f32) (x4 : FVec Ideal S1024 .f32) (b : Fin 2) (h : Fin 16) (s t : Fin 2048) :
    val_main_v28 (F := Ideal) x0 x1 x2 x3 x4 (ix4 b h s t)
      = pexp (projH x0 x1 x2) (projH x0 x3 x4) (bh b h) s t := by
  rw [val_main_v28_apply, val_main_v27_apply, val_main_v26_apply, val_main_v25_apply, idx_row_bcast, ref_score, ref_rowmax]
  simp only [Ideal.hostUnary_exp_def, Ideal.subf_def]
  rfl

/-- The row's sum of unnormalised weights. -/
theorem ref_denom (x0 : FVec Ideal S2x2048x1024 .f32) (x1 : FVec Ideal S1024x1024 .f32) (x2 : FVec Ideal S1024 .f32)
    (x3 : FVec Ideal S1024x1024 .f32) (x4 : FVec Ideal S1024 .f32) (b : Fin 2) (h : Fin 16) (s : Fin 2048) :
    val_main_v29 (F := Ideal) x0 x1 x2 x3 x4 (ix3 b h s)
      = denom (projH x0 x1 x2) (projH x0 x3 x4) (bh b h) s := by
  rw [val_main_v29_apply, val_main_cst_2_apply]
  simp only [Ideal.ofBits_def, Ideal.ofBits_zero_f32, zero_add, idx_row_sum, ref_pexp]
  rfl

/-- The attention weights: the reference's first result. -/
theorem ref_probs (x0 : FVec Ideal S2x2048x1024 .f32) (x1 : FVec Ideal S1024x1024 .f32) (x2 : FVec Ideal S1024 .f32)
    (x3 : FVec Ideal S1024x1024 .f32) (x4 : FVec Ideal S1024 .f32) (b : Fin 2) (h : Fin 16) (s t : Fin 2048) :
    val_main_v32 (F := Ideal) x0 x1 x2 x3 x4 (ix4 b h s t)
      = probs (projH x0 x1 x2) (projH x0 x3 x4) (bh b h) s t := by
  rw [val_main_v32_apply, val_main_v31_apply, val_main_v30_apply, idx_row_bcast', ref_pexp, ref_denom]
  simp only [Ideal.hostDivf_def]
  rfl

/-! ## The weighted values -/

/-- The contraction over the key positions reads the weights at (b, h, s, t) and the values at (b, h, t, d). -/
theorem lidx_ctx (b : Fin 2) (h : Fin 16) (s : Fin 2048) (d : Fin 64) (t : Fin 2048) :
    lidx_main_v33 (ix4 b h s d) t = ix4 b h s t := by
  funext a; apply Fin.ext; match a with | ⟨0, _⟩ => rfl | ⟨1, _⟩ => rfl | ⟨2, _⟩ => rfl | ⟨3, _⟩ => rfl
theorem ridx_ctx (b : Fin 2) (h : Fin 16) (s : Fin 2048) (d : Fin 64) (t : Fin 2048) :
    ridx_main_v33 (ix4 b h s d) t = ix4 b h t d := by
  funext a; apply Fin.ext; match a with | ⟨0, _⟩ => rfl | ⟨1, _⟩ => rfl | ⟨2, _⟩ => rfl | ⟨3, _⟩ => rfl

/-- The weighted values: the reference's second result, before it is laid out as [2, 2048, 1024]. -/
theorem ref_ctx (x0 : FVec Ideal S2x2048x1024 .f32) (x1 : FVec Ideal S1024x1024 .f32) (x2 : FVec Ideal S1024 .f32)
    (x3 : FVec Ideal S1024x1024 .f32) (x4 : FVec Ideal S1024 .f32) (x5 : FVec Ideal S1024x1024 .f32) (x6 : FVec Ideal S1024 .f32)
    (b : Fin 2) (h : Fin 16) (s : Fin 2048) (d : Fin 64) :
    val_main_v33 (F := Ideal) x0 x1 x2 x3 x4 x5 x6 (ix4 b h s d)
      = ctx (projH x0 x1 x2) (projH x0 x3 x4) (projH x0 x5 x6) (bh b h) s d := by
  rw [val_main_v33_apply]
  unfold ctx
  refine Finset.sum_congr rfl fun t _ => ?_
  rw [lidx_ctx, ridx_ctx, ref_probs, heads_v, projH_bh]

end Cert.ReferenceIdeal.RefValue
end
-- ==== Proof.Tail.lean ====
/-
  The host operations after the attention region. The weights array [32, 2048, 2048] is only reshaped to
  [2, 16, 2048, 2048]: head number g = b·16 + h is split back into batch b and head h. The weighted values
  [32, 2048, 64] are reshaped the same way to [2, 16, 2048, 64], then the head axis and the position axis are exchanged
  and head and coordinate are merged into the 1024 features. The last two steps are the same two operations the
  reference ends with, so they are kept as one function of the [2, 16, 2048, 64] array and never opened.
-/
import proofs.«138272_j50989851738367_2_alg».proof.Proof.RunI
import proofs.«138272_j50989851738367_2_alg».proof.Proof.Spec
import Idealize.ShloMosaic.Lib.ValueIdx
import Idealize.ShloMosaic.Lib.Pipeline.Value
import Idealize.ShloMosaic.Lib.StableHlo.Run

noncomputable section

namespace Cert.KernelIdeal.Tail

open Cert.KernelIdeal Cert.KernelIdeal.Gen Cert.KernelIdeal.Run Cert.Attn
open Idealize.ShloMosaic Idealize.ShloMosaic.TcCoe Idealize.ShloMosaic.ValueIdx
open Idealize.SL Idealize.SL.Sem

variable {α : Type}

/-- Splitting the head number: position ((b·16 + h)·2048 + s)·n + j of [2, 16, 2048, n] is position
    ((b·16 + h)·2048 + s)·n + j of [32, 2048, n]. -/
theorem split_apply {n : ℕ} (Y : (⟨3, ![32, 2048, n]⟩ : Shape).Idx → α) (h : (⟨3, ![32, 2048, n]⟩ : Shape).ShapeCasts ⟨4, ![2, 16, 2048, n]⟩)
    (b : Fin 2) (hh : Fin 16) (s : Fin 2048) (j : Fin n) :
    shapeCast ⟨4, ![2, 16, 2048, n]⟩ Y h (ix4 b hh s j) = Y (ix3 (bh b hh) s j) :=
  shapeCast_apply Y h _ _ (by
    rw [Shape.rowMajor_val_four, Shape.rowMajor_val_three]
    show ((b.val * 16 + hh.val) * 2048 + s.val) * n + j.val = ((b.val * 16 + hh.val) * 2048 + s.val) * n + j.val
    rfl)

/-- The last two operations of both programs: exchange head and position, merge head and coordinate. -/
def merge (ht : S2x16x2048x64.Transposes [0, 2, 1, 3] S2x2048x16x64) (hc : S2x2048x16x64.ShapeCasts S2x2048x1024)
    (y : S2x16x2048x64.Idx → α) : S2x2048x1024.Idx → α :=
  shapeCast S2x2048x1024 (transpose S2x2048x16x64 [0, 2, 1, 3] y ht) hc

variable (m : (ℓ : Loc nD τ sig) → Buf (Elt Ideal) ℓ) (ρ : Dev nD → PrngReg) (c : Dev nD)

/-- The weights result is the region's weights array with the head number split. -/
theorem W5_v25 : (W5 m ρ c (Proc.devRef .tc main_v25) : S2x16x2048x2048.Idx → EReal)
    = shapeCast S2x16x2048x2048 (W4 m ρ c (Proc.devRef .tc main_v21_1) : S32x2048x2048.Idx → EReal) Facts₀.shapeCasts_S32x2048x2048_S2x16x2048x2048 := by
  show StableHlo.after hostOps2 _ (Proc.devRef .tc main_v25) = _
  after_results
  rfl

/-- The values result is the shared tail of the region's weighted-values array with the head number split. -/
theorem W5_v24 : (W5 m ρ c (Proc.devRef .tc main_v24) : S2x2048x1024.Idx → EReal)
    = merge Facts₀.transposes_S2x16x2048x64_S2x2048x16x64_0_2_1_3 Facts₀.shapeCasts_S2x2048x16x64_S2x2048x1024
        (shapeCast S2x16x2048x64 (W4 m ρ c (Proc.devRef .tc main_v21_0) : S32x2048x64.Idx → EReal) Facts₀.shapeCasts_S32x2048x64_S2x16x2048x64) := by
  show StableHlo.after hostOps2 _ (Proc.devRef .tc main_v24) = _
  after_results
  rfl

end Cert.KernelIdeal.Tail

end
-- ==== Proof.Bridge.lean ====
/-
  The two programs end with the same results.

  The arrays the attention region is entered with are the three projections split into heads: the projection region
  leaves the projections side by side, and the host operations between the regions re-lay them per head. So the
  region's results are the specification's weights and weighted values of the projections — which is what the
  reference's own operations compute, index by index. The values result then passes through the same last two
  operations in both programs.
-/
import proofs.«138272_j50989851738367_2_alg».proof.Proof.AttnValue
import proofs.«138272_j50989851738367_2_alg».proof.Proof.HeadsLayout
import proofs.«138272_j50989851738367_2_alg».proof.Proof.ProjValue
import proofs.«138272_j50989851738367_2_alg».proof.Proof.RefSide
import proofs.«138272_j50989851738367_2_alg».proof.Proof.Tail

noncomputable section

namespace Cert.KernelIdeal.Bridge

open Cert.KernelIdeal Cert.KernelIdeal.Gen Cert.KernelIdeal.Run Cert.KernelIdeal.AttnValue Cert.Attn
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-- The queries the attention region is entered with are the first projection split into heads. -/
theorem Q3_eq : Q3 m ρ c = projH (m ((c.tc : Thread nD τ).loc main_arg0)) (m ((c.tc : Thread nD τ).loc main_arg1)) (m ((c.tc : Thread nD τ).loc main_arg2)) := by
  funext g s d
  refine (Cert.KernelIdeal.Heads.heads_q (W2 m ρ c) g s d).trans ?_
  refine (Cert.KernelIdeal.ProjValue.v8_q m ρ c (rowOf (gb g) s) (hd (gh g) d)).trans ?_
  unfold projH; rw [rowB_rowOf, rowS_rowOf]

/-- The keys: the second projection. -/
theorem K3_eq : K3 m ρ c = projH (m ((c.tc : Thread nD τ).loc main_arg0)) (m ((c.tc : Thread nD τ).loc main_arg3)) (m ((c.tc : Thread nD τ).loc main_arg4)) := by
  funext g s d
  refine (Cert.KernelIdeal.Heads.heads_k (W2 m ρ c) g s d).trans ?_
  refine (Cert.KernelIdeal.ProjValue.v8_k m ρ c (rowOf (gb g) s) (hd (gh g) d)).trans ?_
  unfold projH; rw [rowB_rowOf, rowS_rowOf]

/-- The values: the third projection. -/
theorem Vv3_eq : Vv3 m ρ c = projH (m ((c.tc : Thread nD τ).loc main_arg0)) (m ((c.tc : Thread nD τ).loc main_arg5)) (m ((c.tc : Thread nD τ).loc main_arg6)) := by
  funext g s d
  refine (Cert.KernelIdeal.Heads.heads_v (W2 m ρ c) g s d).trans ?_
  refine (Cert.KernelIdeal.ProjValue.v8_v m ρ c (rowOf (gb g) s) (hd (gh g) d)).trans ?_
  unfold projH; rw [rowB_rowOf, rowS_rowOf]

/-- The weights result is the reference's weights. -/
theorem probs_eq : (W5 m ρ c (Proc.devRef .tc main_v25) : S2x16x2048x2048.Idx → EReal)
    = Cert.ReferenceIdeal.Read.val_main_v32 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [Cert.KernelIdeal.Tail.W5_v25]
  funext i
  obtain ⟨b, h, s, t, rfl⟩ : ∃ (b : Fin 2) (h : Fin 16) (s t : Fin 2048), i = ix4 b h s t := ⟨i 0, i 1, i 2, i 3, eq_ix4 i⟩
  refine (Cert.KernelIdeal.Tail.split_apply _ _ b h s t).trans ?_
  refine (W4_probs m ρ c (bh b h) s t).trans ?_
  rw [Q3_eq, K3_eq]
  exact (Cert.ReferenceIdeal.RefValue.ref_probs _ _ _ _ _ b h s t).symm

/-- The weighted values, before the shared last two operations, are the reference's. -/
theorem ctx_heads_eq : shapeCast S2x16x2048x64 (W4 m ρ c (Proc.devRef .tc main_v21_0) : S32x2048x64.Idx → EReal) Facts₀.shapeCasts_S32x2048x64_S2x16x2048x64
    = Cert.ReferenceIdeal.Read.val_main_v33 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  obtain ⟨b, h, s, d, rfl⟩ : ∃ (b : Fin 2) (h : Fin 16) (s : Fin 2048) (d : Fin 64), i = ix4 b h s d := ⟨i 0, i 1, i 2, i 3, eq_ix4 i⟩
  refine (Cert.KernelIdeal.Tail.split_apply _ _ b h s d).trans ?_
  refine (W4_ctx m ρ c (bh b h) s d).trans ?_
  rw [Q3_eq, K3_eq, Vv3_eq]
  exact (Cert.ReferenceIdeal.RefValue.ref_ctx _ _ _ _ _ _ _ b h s d).symm

/-- The values result is the reference's values result. -/
theorem ctx_eq : (W5 m ρ c (Proc.devRef .tc main_v24) : S2x2048x1024.Idx → EReal)
    = Cert.ReferenceIdeal.Read.val_main_v35 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [Cert.KernelIdeal.Tail.W5_v24, ctx_heads_eq]
  rfl

end Cert.KernelIdeal.Bridge

end
-- ==== Proof.lean ====
/-
  Multi-head self-attention computed by two kernel regions (one projection matmul for queries, keys and values together;
  then per head and block of query positions the scaled scores, the row-wise softmax and the weighted values) against
  the plain reference (three projections, scores divided by the square root of 64, softmax, weighted values).

  On the extended reals the two agree entry by entry: a matrix product is the same sum however it is tiled or its
  operands are laid side by side; a change of float format is the identity; dividing by √64 = 8 is multiplying by 1/8
  on every extended real; the maximum with −∞ of a maximum that started from −∞ changes nothing. No law used needs the
  inputs to be finite, so the precondition is never opened. Every program runs to the end without a fault and leaves
  its argument arrays as launched: for the kernel (at the word level and at the extended reals) by running each region's
  body at a symbolic grid point and chaining host stretches and regions; for the reference by its run read back. The
  idealization rewrote no operation, so there is nothing to preserve.
-/
import proofs.«138272_j50989851738367_2_alg».proof.Defs
import proofs.«138272_j50989851738367_2_alg».proof.Proof.Gen.Kernel
import proofs.«138272_j50989851738367_2_alg».proof.Proof.Gen.KernelIdeal
import proofs.«138272_j50989851738367_2_alg».proof.Proof.Gen.ReferenceIdeal
import proofs.«138272_j50989851738367_2_alg».proof.Proof.Gen.ReferenceIdeal.Run
import proofs.«138272_j50989851738367_2_alg».proof.Proof.Gen.ReferenceIdeal.Read
import proofs.«138272_j50989851738367_2_alg».proof.Proof.Gen.Pre_finite_inputs
import proofs.«138272_j50989851738367_2_alg».proof.Proof.RunK
import proofs.«138272_j50989851738367_2_alg».proof.Proof.RunI
import proofs.«138272_j50989851738367_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs to the end and its arguments end as launched. -/
theorem frame_k : Cert.frame_Kernel := fun m ρ _ => Cert.Kernel.Run.frame m ρ

/-- So does the kernel read on the extended reals. -/
theorem frame_ki : Cert.frame_KernelIdeal := fun m ρ _ => Cert.KernelIdeal.Run.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs, run from memories that agree on the arguments, end with the same two results. -/
theorem algebraic : Cert.algebraic_KernelIdeal_ReferenceIdeal := by
  intro m ρ m' ρ' _ hagree
  refine ⟨fun c => Cert.KernelIdeal.Run.W5 m ρ c (Proc.devRef .tc Cert.KernelIdeal.main_v24),
    fun c => Cert.KernelIdeal.Run.W5 m ρ c (Proc.devRef .tc Cert.KernelIdeal.main_v25), ?_, ?_⟩
  · exact (θ_run Cert.KernelIdeal.defs _ _).mono (fun r h c =>
      ⟨h c _ (Cert.KernelIdeal.Run.mem_uc Cert.KernelIdeal.main_v24 (by decide)),
       h c _ (Cert.KernelIdeal.Run.mem_uc Cert.KernelIdeal.main_v25 (by decide)),
       (h c _ (Cert.KernelIdeal.Run.mem_uc Cert.KernelIdeal.main_arg0 (by decide))).trans (Cert.KernelIdeal.Run.W5_main_arg0 m ρ c),
       (h c _ (Cert.KernelIdeal.Run.mem_uc Cert.KernelIdeal.main_arg1 (by decide))).trans (Cert.KernelIdeal.Run.W5_main_arg1 m ρ c),
       (h c _ (Cert.KernelIdeal.Run.mem_uc Cert.KernelIdeal.main_arg2 (by decide))).trans (Cert.KernelIdeal.Run.W5_main_arg2 m ρ c),
       (h c _ (Cert.KernelIdeal.Run.mem_uc Cert.KernelIdeal.main_arg3 (by decide))).trans (Cert.KernelIdeal.Run.W5_main_arg3 m ρ c),
       (h c _ (Cert.KernelIdeal.Run.mem_uc Cert.KernelIdeal.main_arg4 (by decide))).trans (Cert.KernelIdeal.Run.W5_main_arg4 m ρ c),
       (h c _ (Cert.KernelIdeal.Run.mem_uc Cert.KernelIdeal.main_arg5 (by decide))).trans (Cert.KernelIdeal.Run.W5_main_arg5 m ρ c),
       (h c _ (Cert.KernelIdeal.Run.mem_uc Cert.KernelIdeal.main_arg6 (by decide))).trans (Cert.KernelIdeal.Run.W5_main_arg6 m ρ c)⟩)
      (Cert.KernelIdeal.Run.run_main m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v35_eq, (hagree c).1, (hagree c).2.1, (hagree c).2.2.1, (hagree c).2.2.2.1, (hagree c).2.2.2.2.1, (hagree c).2.2.2.2.2.1, (hagree c).2.2.2.2.2.2]
      exact (Cert.KernelIdeal.Bridge.ctx_eq m ρ c).symm
    · rw [Cert.ReferenceIdeal.Read.val_main_v32_eq, (hagree c).1, (hagree c).2.1, (hagree c).2.2.1, (hagree c).2.2.2.1, (hagree c).2.2.2.2.1]
      exact (Cert.KernelIdeal.Bridge.probs_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
